-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x512x512 : Shape := ⟨4, ![16, 3, 512, 512]⟩
abbrev S_ : Shape := ⟨0, ![]⟩

class Facts : Prop where
  bcast_S_S16x3x512x512 : S_.BroadcastsInDim S16x3x512x512 (![] : Fin 0 → Fin S16x3x512x512.rank)
  reducesTo_S16x3x512x512_S_d0_1_2_3 : S16x3x512x512.ReducesTo [0, 1, 2, 3] S_
  h_S_ : 0 < S_.numel

variable [Facts]

def fn {F : FTy → Type} [FloatOps F] (main_arg0 : FVec F S16x3x512x512 .f32) (main_arg1 : FVec F S16x3x512x512 .f32) : IVec S_ 1 :=
  let main_v0 : FVec F S16x3x512x512 .f32 := Host.absf main_arg0
  let main_cst : FVec F S_ .f32 := constant S_ .f32 0x7F800000#32
  let main_v1 : FVec F S16x3x512x512 .f32 := broadcastInDim S16x3x512x512 ![] bcast_S_S16x3x512x512 main_cst
  let main_v2 : IVec S16x3x512x512 1 := cmpf .olt main_v0 main_v1
  let main_c : IVec S_ 1 := constantI S_ 1 1#1
  let main_v3 : IVec S_ 1 := (fun x v => Host.reduce IntOp.andi x v reducesTo_S16x3x512x512_S_d0_1_2_3 h_S_) main_v2 main_c
  let main_v4 : FVec F S16x3x512x512 .f32 := Host.absf main_arg1
  let main_cst_0 : FVec F S_ .f32 := constant S_ .f32 0x7F800000#32
  let main_v5 : FVec F S16x3x512x512 .f32 := broadcastInDim S16x3x512x512 ![] bcast_S_S16x3x512x512 main_cst_0
  let main_v6 : IVec S16x3x512x512 1 := cmpf .olt main_v4 main_v5
  let main_c_1 : IVec S_ 1 := constantI S_ 1 1#1
  let main_v7 : IVec S_ 1 := (fun x v => Host.reduce IntOp.andi x v reducesTo_S16x3x512x512_S_d0_1_2_3 h_S_) main_v6 main_c_1
  let main_v8 : IVec S_ 1 := andi main_v3 main_v7
  main_v8
-- ==== Kernel.lean ====
abbrev S16x3x512x512 : Shape := ⟨4, ![16, 3, 512, 512]⟩
abbrev S512 : Shape := ⟨1, ![512]⟩
abbrev S1x512 : Shape := ⟨2, ![1, 512]⟩
abbrev S128 : Shape := ⟨1, ![128]⟩
abbrev S128x1 : Shape := ⟨2, ![128, 1]⟩
abbrev S_ : Shape := ⟨0, ![]⟩
abbrev S128x512 : Shape := ⟨2, ![128, 512]⟩
abbrev S512x128 : Shape := ⟨2, ![512, 128]⟩
abbrev S1x128 : Shape := ⟨2, ![1, 128]⟩
abbrev S128x128 : Shape := ⟨2, ![128, 128]⟩
abbrev S16x1x128x128 : Shape := ⟨4, ![16, 1, 128, 128]⟩
abbrev S1x3x512x512 : Shape := ⟨4, ![1, 3, 512, 512]⟩
abbrev S1x1x128x128 : Shape := ⟨4, ![1, 1, 128, 128]⟩
abbrev S3x512x512 : Shape := ⟨3, ![3, 512, 512]⟩
abbrev S512x512 : Shape := ⟨2, ![512, 512]⟩

abbrev nBuf : Space → Nat
  | .hbm => 54
  | .vmem => 12
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S512, .i32⟩
  | .hbm, ⟨3, _⟩ => ⟨S1x512, .i32⟩
  | .hbm, ⟨4, _⟩ => ⟨S128, .i32⟩
  | .hbm, ⟨5, _⟩ => ⟨S128x1, .i32⟩
  | .hbm, ⟨6, _⟩ => ⟨S_, .i32⟩
  | .hbm, ⟨7, _⟩ => ⟨S_, .i32⟩
  | .hbm, ⟨8, _⟩ => ⟨S1x512, .i32⟩
  | .hbm, ⟨9, _⟩ => ⟨S1x512, .i32⟩
  | .hbm, ⟨10, _⟩ => ⟨S1x512, .i32⟩
  | .hbm, ⟨11, _⟩ => ⟨S_, .i32⟩
  | .hbm, ⟨12, _⟩ => ⟨S1x512, .i32⟩
  | .hbm, ⟨13, _⟩ => ⟨S1x512, .i1⟩
  | .hbm, ⟨14, _⟩ => ⟨S1x512, .i32⟩
  | .hbm, ⟨15, _⟩ => ⟨S1x512, .i32⟩
  | .hbm, ⟨16, _⟩ => ⟨S_, .i32⟩
  | .hbm, ⟨17, _⟩ => ⟨S1x512, .i32⟩
  | .hbm, ⟨18, _⟩ => ⟨S1x512, .i1⟩
  | .hbm, ⟨19, _⟩ => ⟨S1x512, .i1⟩
  | .hbm, ⟨20, _⟩ => ⟨S_, .i32⟩
  | .hbm, ⟨21, _⟩ => ⟨S1x512, .i32⟩
  | .hbm, ⟨22, _⟩ => ⟨S1x512, .i32⟩
  | .hbm, ⟨23, _⟩ => ⟨S1x512, .i32⟩
  | .hbm, ⟨24, _⟩ => ⟨S128x512, .i32⟩
  | .hbm, ⟨25, _⟩ => ⟨S128x512, .i32⟩
  | .hbm, ⟨26, _⟩ => ⟨S128x512, .i1⟩
  | .hbm, ⟨27, _⟩ => ⟨S128x512, .bf16⟩
  | .hbm, ⟨28, _⟩ => ⟨S512x128, .bf16⟩
  | .hbm, ⟨29, _⟩ => ⟨S128, .i32⟩
  | .hbm, ⟨30, _⟩ => ⟨S128x1, .i32⟩
  | .hbm, ⟨31, _⟩ => ⟨S128, .i32⟩
  | .hbm, ⟨32, _⟩ => ⟨S1x128, .i32⟩
  | .hbm, ⟨33, _⟩ => ⟨S_, .i32⟩
  | .hbm, ⟨34, _⟩ => ⟨S128x1, .i32⟩
  | .hbm, ⟨35, _⟩ => ⟨S128x1, .i32⟩
  | .hbm, ⟨36, _⟩ => ⟨S128x128, .i32⟩
  | .hbm, ⟨37, _⟩ => ⟨S128x128, .i32⟩
  | .hbm, ⟨38, _⟩ => ⟨S128x128, .i1⟩
  | .hbm, ⟨39, _⟩ => ⟨S128x128, .bf16⟩
  | .hbm, ⟨40, _⟩ => ⟨S128x128, .bf16⟩
  | .hbm, ⟨41, _⟩ => ⟨S128, .i32⟩
  | .hbm, ⟨42, _⟩ => ⟨S128x1, .i32⟩
  | .hbm, ⟨43, _⟩ => ⟨S128, .i32⟩
  | .hbm, ⟨44, _⟩ => ⟨S1x128, .i32⟩
  | .hbm, ⟨45, _⟩ => ⟨S_, .i32⟩
  | .hbm, ⟨46, _⟩ => ⟨S128x1, .i32⟩
  | .hbm, ⟨47, _⟩ => ⟨S128x1, .i32⟩
  | .hbm, ⟨48, _⟩ => ⟨S128x128, .i32⟩
  | .hbm, ⟨49, _⟩ => ⟨S128x128, .i32⟩
  | .hbm, ⟨50, _⟩ => ⟨S128x128, .i1⟩
  | .hbm, ⟨51, _⟩ => ⟨S128x128, .bf16⟩
  | .hbm, ⟨52, _⟩ => ⟨S128x128, .bf16⟩
  | .hbm, ⟨53, _⟩ => ⟨S16x1x128x128, .f32⟩
  | .local _ .vmem, ⟨0, _⟩ => ⟨S1x3x512x512, .f32⟩
  | .local _ .vmem, ⟨1, _⟩ => ⟨S1x3x512x512, .f32⟩
  | .local _ .vmem, ⟨2, _⟩ => ⟨S1x3x512x512, .f32⟩
  | .local _ .vmem, ⟨3, _⟩ => ⟨S1x3x512x512, .f32⟩
  | .local _ .vmem, ⟨4, _⟩ => ⟨S128x512, .bf16⟩
  | .local _ .vmem, ⟨5, _⟩ => ⟨S512x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S1x1x128x128, .f32⟩
  | .local _ .vmem, ⟨11, _⟩ => ⟨S1x1x128x128, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c_0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_1 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S512_S1x512_1 : S512.BroadcastsInDim S1x512 (![1] : Fin 1 → Fin S1x512.rank)
  bcast_S128_S128x1_0 : S128.BroadcastsInDim S128x1 (![0] : Fin 1 → Fin S128x1.rank)
  bcast_S_S1x512 : S_.BroadcastsInDim S1x512 (![] : Fin 0 → Fin S1x512.rank)
  bcast_S1x512_S128x512_0_1 : S1x512.BroadcastsInDim S128x512 (![0, 1] : Fin 2 → Fin S128x512.rank)
  bcast_S128x1_S128x512_0_1 : S128x1.BroadcastsInDim S128x512 (![0, 1] : Fin 2 → Fin S128x512.rank)
  transposes_S128x512_S512x128_1_0 : S128x512.Transposes [1, 0] S512x128
  bcast_S128_S1x128_1 : S128.BroadcastsInDim S1x128 (![1] : Fin 1 → Fin S1x128.rank)
  bcast_S_S128x1 : S_.BroadcastsInDim S128x1 (![] : Fin 0 → Fin S128x1.rank)
  bcast_S1x128_S128x128_0_1 : S1x128.BroadcastsInDim S128x128 (![0, 1] : Fin 2 → Fin S128x128.rank)
  bcast_S128x1_S128x128_0_1 : S128x1.BroadcastsInDim S128x128 (![0, 1] : Fin 2 → Fin S128x128.rank)
  transposes_S128x128_S128x128_1_0 : S128x128.Transposes [1, 0] S128x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x3x512x512_S1x3x512x512_0_0_0_0 : ∀ a, (![0, 0, 0, 0] : Fin 4 → Nat) a + S1x3x512x512.size a ≤ S1x3x512x512.size a
  h_S1x3x512x512 : 0 < S1x3x512x512.numel
  shapeCasts_S1x3x512x512_S3x512x512 : S1x3x512x512.ShapeCasts S3x512x512
  reduces_S3x512x512_S512x512 : S3x512x512.Reduces [0] S512x512
  bitsLt_bf16_f32 : FTy.bits .bf16 < FTy.bits .f32
  shapeCasts_S128x128_S1x1x128x128 : S128x128.ShapeCasts S1x1x128x128
  inb_S1x1x128x128_S1x1x128x128_0_0_0_0 : ∀ a, (![0, 0, 0, 0] : Fin 4 → Nat) a + S1x1x128x128.size a ≤ S1x1x128x128.size a
  h_S1x1x128x128 : 0 < S1x1x128x128.numel
  dot_S128x512_S512x512_S128x512_1_0_0_1_n_n_wf : DotDims.WF S128x512 S512x512 S128x512 [1] [0] [0] [1] [] []
  dot_S128x512_S512x128_S128x128_1_0_0_1_n_n_wf : DotDims.WF S128x512 S512x128 S128x128 [1] [0] [0] [1] [] []
  dot_S128x128_S128x128_S128x128_1_0_0_1_n_n_wf : DotDims.WF S128x128 S128x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512x512.size a ≤ S16x3x512x512.size a
  hwx0_0 : ∀ i : grid0.Coords, EltTy.bits .f32 = 32 ∨ (Rect.block (s := S16x3x512x512) S1x3x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512x512.size a ≤ S16x3x512x512.size a
  hwx0_1 : ∀ i : grid0.Coords, EltTy.bits .f32 = 32 ∨ (Rect.block (s := S16x3x512x512) S1x3x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .bf16 = 32 ∨ (Rect.block (s := S128x512) S128x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .bf16 = 32 ∨ (Rect.block (s := S512x128) S512x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x128x128.size a ≤ S16x1x128x128.size a
  hwx0_8 : ∀ i : grid0.Coords, EltTy.bits .f32 = 32 ∨ (Rect.block (s := S16x1x128x128) S1x1x128x128.size (cc0_transform_8 i) (hinb0_8 i)).WholeWords (EltTy.packing .f32)

variable [Facts₀]

def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S128x512_S512x128_S128x128_1_0_0_1_n_n : DotDims S128x512 S512x128 S128x128 where
  lhsContracting := [1]
  rhsContracting := [0]
  lhsNonContracting := [0]
  rhsNonContracting := [1]
  lhsBatch := []
  rhsBatch := []
  wf := dot_S128x512_S512x128_S128x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_arg0) S1x3x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v31) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v32) S1x1x128x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16x3x512x512 : Shape := ⟨4, ![16, 3, 512, 512]⟩
abbrev S_ : Shape := ⟨0, ![]⟩
abbrev S16x512x512 : Shape := ⟨3, ![16, 512, 512]⟩
abbrev S16x1x512x512 : Shape := ⟨4, ![16, 1, 512, 512]⟩
abbrev S16x1x128x4x128x4 : Shape := ⟨6, ![16, 1, 128, 4, 128, 4]⟩
abbrev S16x1x128x128 : Shape := ⟨4, ![16, 1, 128, 128]⟩
abbrev S16x1x130x130 : Shape := ⟨4, ![16, 1, 130, 130]⟩

abbrev nBuf : Space → Nat
  | .hbm => 61
  | .vmem => 0
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S_, .f32⟩
  | .hbm, ⟨3, _⟩ => ⟨S16x512x512, .f32⟩
  | .hbm, ⟨4, _⟩ => ⟨S16x1x512x512, .f32⟩
  | .hbm, ⟨5, _⟩ => ⟨S_, .f32⟩
  | .hbm, ⟨6, _⟩ => ⟨S16x1x512x512, .f32⟩
  | .hbm, ⟨7, _⟩ => ⟨S16x1x512x512, .f32⟩
  | .hbm, ⟨8, _⟩ => ⟨S16x1x128x4x128x4, .f32⟩
  | .hbm, ⟨9, _⟩ => ⟨S_, .f32⟩
  | .hbm, ⟨10, _⟩ => ⟨S16x1x128x128, .f32⟩
  | .hbm, ⟨11, _⟩ => ⟨S_, .f32⟩
  | .hbm, ⟨12, _⟩ => ⟨S16x1x128x128, .f32⟩
  | .hbm, ⟨13, _⟩ => ⟨S16x1x128x128, .f32⟩
  | .hbm, ⟨14, _⟩ => ⟨S_, .f32⟩
  | .hbm, ⟨15, _⟩ => ⟨S16x512x512, .f32⟩
  | .hbm, ⟨16, _⟩ => ⟨S16x1x512x512, .f32⟩
  | .hbm, ⟨17, _⟩ => ⟨S_, .f32⟩
  | .hbm, ⟨18, _⟩ => ⟨S16x1x512x512, .f32⟩
  | .hbm, ⟨19, _⟩ => ⟨S16x1x512x512, .f32⟩
  | .hbm, ⟨20, _⟩ => ⟨S16x1x128x4x128x4, .f32⟩
  | .hbm, ⟨21, _⟩ => ⟨S_, .f32⟩
  | .hbm, ⟨22, _⟩ => ⟨S16x1x128x128, .f32⟩
  | .hbm, ⟨23, _⟩ => ⟨S_, .f32⟩
  | .hbm, ⟨24, _⟩ => ⟨S16x1x128x128, .f32⟩
  | .hbm, ⟨25, _⟩ => ⟨S16x1x128x128, .f32⟩
  | .hbm, ⟨26, _⟩ => ⟨S_, .i32⟩
  | .hbm, ⟨27, _⟩ => ⟨S_, .f32⟩
  | .hbm, ⟨28, _⟩ => ⟨S16x1x130x130, .f32⟩
  | .hbm, ⟨29, _⟩ => ⟨S16x1x128x128, .f32⟩
  | .hbm, ⟨30, _⟩ => ⟨S16x1x128x128, .f32⟩
  | .hbm, ⟨31, _⟩ => ⟨S16x1x128x128, .f32⟩
  | .hbm, ⟨32, _⟩ => ⟨S16x1x128x128, .f32⟩
  | .hbm, ⟨33, _⟩ => ⟨S16x1x128x128, .f32⟩
  | .hbm, ⟨34, _⟩ => ⟨S16x1x128x128, .f32⟩
  | .hbm, ⟨35, _⟩ => ⟨S16x1x128x128, .f32⟩
  | .hbm, ⟨36, _⟩ => ⟨S16x1x128x128, .f32⟩
  | .hbm, ⟨37, _⟩ => ⟨S16x1x128x128, .f32⟩
  | .hbm, ⟨38, _⟩ => ⟨S_, .i32⟩
  | .hbm, ⟨39, _⟩ => ⟨S_, .f32⟩
  | .hbm, ⟨40, _⟩ => ⟨S16x1x130x130, .f32⟩
  | .hbm, ⟨41, _⟩ => ⟨S16x1x128x128, .f32⟩
  | .hbm, ⟨42, _⟩ => ⟨S16x1x128x128, .f32⟩
  | .hbm, ⟨43, _⟩ => ⟨S16x1x128x128, .f32⟩
  | .hbm, ⟨44, _⟩ => ⟨S16x1x128x128, .f32⟩
  | .hbm, ⟨45, _⟩ => ⟨S16x1x128x128, .f32⟩
  | .hbm, ⟨46, _⟩ => ⟨S16x1x128x128, .f32⟩
  | .hbm, ⟨47, _⟩ => ⟨S16x1x128x128, .f32⟩
  | .hbm, ⟨48, _⟩ => ⟨S16x1x128x128, .f32⟩
  | .hbm, ⟨49, _⟩ => ⟨S16x1x128x128, .f32⟩
  | .hbm, ⟨50, _⟩ => ⟨S16x1x128x128, .f32⟩
  | .hbm, ⟨51, _⟩ => ⟨S16x1x128x128, .f32⟩
  | .hbm, ⟨52, _⟩ => ⟨S16x1x128x128, .f32⟩
  | .hbm, ⟨53, _⟩ => ⟨S16x1x128x128, .f32⟩
  | .hbm, ⟨54, _⟩ => ⟨S16x1x128x128, .f32⟩
  | .hbm, ⟨55, _⟩ => ⟨S16x1x128x128, .f32⟩
  | .hbm, ⟨56, _⟩ => ⟨S16x1x128x128, .f32⟩
  | .hbm, ⟨57, _⟩ => ⟨S16x1x128x128, .f32⟩
  | .hbm, ⟨58, _⟩ => ⟨S16x1x128x128, .f32⟩
  | .hbm, ⟨59, _⟩ => ⟨S16x1x128x128, .f32⟩
  | .hbm, ⟨60, _⟩ => ⟨S16x1x128x128, .f32⟩
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_7 : Ref sig .tc := ⟨.hbm, 38, rfl⟩
abbrev main_call1_v0 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]

class Facts₀ : Prop where
  reducesTo_S16x3x512x512_S16x512x512_d1 : S16x3x512x512.ReducesTo [1] S16x512x512
  h_S_ : 0 < S_.numel
  bcast_S16x512x512_S16x1x512x512_0_2_3 : S16x512x512.BroadcastsInDim S16x1x512x512 (![0, 2, 3] : Fin 3 → Fin S16x1x512x512.rank)
  bcast_S_S16x1x512x512 : S_.BroadcastsInDim S16x1x512x512 (![] : Fin 0 → Fin S16x1x512x512.rank)
  shapeCasts_S16x1x512x512_S16x1x128x4x128x4 : S16x1x512x512.ShapeCasts S16x1x128x4x128x4
  reducesTo_S16x1x128x4x128x4_S16x1x128x128_d3_5 : S16x1x128x4x128x4.ReducesTo [3, 5] S16x1x128x128
  bcast_S_S16x1x128x128 : S_.BroadcastsInDim S16x1x128x128 (![] : Fin 0 → Fin S16x1x128x128.rank)
  pads_S16x1x128x128_S16x1x130x130_000_000_110_110 : S16x1x128x128.Pads (![0, 0, 1, 1] : Fin 4 → Nat) ![0, 0, 1, 1] ![0, 0, 0, 0] S16x1x130x130
  slices_S16x1x130x130_S16x1x128x128_0_0_1_1 : S16x1x130x130.Slices ![0, 0, 1, 1] S16x1x128x128
  slices_S16x1x130x130_S16x1x128x128_0_0_1_0 : S16x1x130x130.Slices ![0, 0, 1, 0] S16x1x128x128
  slices_S16x1x130x130_S16x1x128x128_0_0_1_2 : S16x1x130x130.Slices ![0, 0, 1, 2] S16x1x128x128
  slices_S16x1x130x130_S16x1x128x128_0_0_0_1 : S16x1x130x130.Slices ![0, 0, 0, 1] S16x1x128x128
  slices_S16x1x130x130_S16x1x128x128_0_0_2_1 : S16x1x130x130.Slices ![0, 0, 2, 1] S16x1x128x128

variable [Facts₀]

class Facts : Prop extends Facts₀ where

variable [Facts]
-- ==== Proof.LibTileSum.lean ====
/-
  Sums regrouped by tiles of rows, in any commutative additive monoid (so also on the extended reals, where no
  finiteness is asked: only commutativity and associativity of the sum are used).

  * `sum_tiles`: the sum over `A * B` consecutive rows is the sum over `A` tiles of the sums over each tile's `B`
    rows; row `B * t + r` of the whole is row `r` of tile `t` (`tileRow`).
  * `sum_idx1`, `sum_unitCol`: a sum over the multi-indices of a vector `[n]`, or of a one-column matrix `[n, 1]`,
    is the sum over the row coordinate.
  * `sum_shapeCast`: a shape cast keeps every element at its row-major position, so the sum over a shape cast of a
    vector is the sum over the vector.
-/
import Idealize.ShloMosaic.Lib.ValueIdx

noncomputable section

open scoped BigOperators

namespace Cert.Lib.TileSum

open Idealize.ShloMosaic Idealize.ShloMosaic.ValueIdx

variable {M : Type} [AddCommMonoid M]

/-- Row `r` of tile `t`, among `A` tiles of `B` rows each, is a row of the whole. -/
theorem tile_row_lt {A B : ℕ} (t : Fin A) (r : Fin B) : B * t.val + r.val < A * B := by
  have h1 : B * t.val + r.val < B * t.val + B := Nat.add_lt_add_left r.isLt _
  have h2 : B * t.val + B ≤ A * B := by
    have h3 : B * (t.val + 1) ≤ B * A := Nat.mul_le_mul_left B t.isLt
    rw [Nat.mul_add, Nat.mul_one, Nat.mul_comm B A] at h3
    exact h3
  exact lt_of_lt_of_le h1 h2

/-- Row `r` of tile `t` as a row of the whole: number `B * t + r`. -/
def tileRow {A B N : ℕ} (h : A * B = N) (t : Fin A) (r : Fin B) : Fin N :=
  ⟨B * t.val + r.val, h ▸ tile_row_lt t r⟩

@[simp] theorem tileRow_val {A B N : ℕ} (h : A * B = N) (t : Fin A) (r : Fin B) :
    (tileRow h t r).val = B * t.val + r.val := rfl

/-- A sum over all rows is the sum over the tiles of the sums over each tile's rows. -/
theorem sum_tiles {A B N : ℕ} (h : A * B = N) (f : Fin N → M) :
    ∑ t : Fin A, ∑ r : Fin B, f (tileRow h t r) = ∑ j : Fin N, f j := by
  subst h
  calc ∑ t : Fin A, ∑ r : Fin B, f (tileRow rfl t r)
      = ∑ x : Fin A × Fin B, f (tileRow rfl x.1 x.2) := (Fintype.sum_prod_type' fun t r => f (tileRow rfl t r)).symm
    _ = ∑ x : Fin A × Fin B, f (finProdFinEquiv x) :=
        Finset.sum_congr rfl fun x _ => congrArg f (Fin.ext (Nat.add_comm _ _))
    _ = ∑ j : Fin (A * B), f j := Equiv.sum_comp finProdFinEquiv f

/-- The multi-indices of a vector `[n]` are its coordinates … -/
def idxEquiv1 {n : ℕ} : (⟨1, ![n]⟩ : Shape).Idx ≃ Fin n where
  toFun i := i 0
  invFun a := ix1 a
  left_inv i := (eq_ix1 i).symm
  right_inv _ := rfl

/-- … so a sum over them is the sum over the coordinate. -/
theorem sum_idx1 {n : ℕ} (f : (⟨1, ![n]⟩ : Shape).Idx → M) : ∑ i, f i = ∑ a : Fin n, f (ix1 a) :=
  (Equiv.sum_comp (idxEquiv1 (n := n)).symm f).symm

/-- A sum over the multi-indices of a one-column matrix `[n, 1]` is the sum over the rows. -/
theorem sum_unitCol {n : ℕ} (f : (⟨2, ![n, 1]⟩ : Shape).Idx → M) :
    ∑ i, f i = ∑ a : Fin n, f (ix2 a (0 : Fin 1)) := by
  rw [sum_idx2]
  exact Finset.sum_congr rfl fun a _ => Fin.sum_univ_one _

/-- A shape cast relabels positions, one to one: the sum over a shape cast of `v` is the sum over `v`. -/
theorem sum_shapeCast {s t : Shape} (v : s.Idx → M) (h : s.ShapeCasts t) :
    ∑ j : t.Idx, shapeCast t v h j = ∑ i : s.Idx, v i :=
  Equiv.sum_comp (Shape.reshapeEquiv h) v

end Cert.Lib.TileSum

end
-- ==== Proof.Spec.lean ====
/-
  The mathematics of the kernel, with no program in sight: everything is an extended real.

  An image stack X has per batch member three channels of 512 × 512 entries.
    * gray Y r c        the channel sum at (r, c) divided by the word 3.0;
    * pooled Y o q        the sum of the 4 × 4 block of gray entries at rows 4o … 4o+3 and columns 4q … 4q+3, divided
                        by the word 16.0 — a 128 × 128 image;
    * lft / rgt / upp / dwn   the neighbour of an entry of a 128 × 128 image to the left / right / above / below,
                        and 0 beyond the border (the image padded with one ring of zeros);
    * edge P Q i j      ((P - lft P) - (Q - lft Q))² + ((P - rgt P) - (Q - rgt Q))² + (… upp …)² + (… dwn …)² at (i, j).

  The laws proved here are the ones that join a kernel computing these with 0/1 matrices to the plain formulas:
    * a sum against the indicator of "column k lies in block o" is the sum over the block's four columns
      (pool_rows_sum, pool_cols_sum): only 0 · x = 0, 1 · x = x and regrouping a finite sum — no finiteness;
    * a sum against the indicator of the super- or sub-diagonal picks the neighbour, or nothing at the border
      (sum_mul_superdiag … sum_subdiag_mul);
    * dividing by 16 is multiplying by 1/16 on every extended real (mul_sixteenth).
-/
import Idealize.ShloMosaic.PureOps.Ideal
import Idealize.ShloMosaic.PureOps.Ideal.Laws
import Idealize.ShloMosaic.Lib.ValueIdx
import proofs.«124903_j84370337562972_1_alg».proof.Proof.LibTileSum

noncomputable section

open scoped BigOperators

namespace Cert.EdgeSpec

open Idealize.ShloMosaic Cert.Lib.TileSum

/-- The word 3.0 (f32) at the ideal values; never evaluated: both programs divide by the same word. -/
abbrev w3 : EReal := Ideal.ofBits .f32 0x40400000#32
/-- The word 16.0 (f32) at the ideal values. -/
abbrev w16 : EReal := Ideal.ofBits .f32 0x41800000#32
/-- The word 0.0625 (f32) at the ideal values. -/
abbrev w16inv : EReal := Ideal.ofBits .f32 0x3D800000#32

/-- Row `4 o + a` of the 512 rows: row `a` of block `o`. -/
abbrev blockRow (o : Fin 128) (a : Fin 4) : Fin 512 := tileRow (A := 128) (B := 4) (N := 512) rfl o a

/-- The channel mean (as the programs spell it: the sum divided by the word 3.0). -/
def gray (Y : Fin 3 → Fin 512 → Fin 512 → EReal) (r c : Fin 512) : EReal :=
  Ideal.div (∑ ch : Fin 3, Y ch r c) w3

/-- The 4 × 4 average pool of the channel mean: the block's sum divided by the word 16.0. -/
def pooled (Y : Fin 3 → Fin 512 → Fin 512 → EReal) (o q : Fin 128) : EReal :=
  Ideal.div (∑ a : Fin 4, ∑ d : Fin 4, gray Y (blockRow o a) (blockRow q d)) w16

/-- The neighbour to the left, 0 at the left border. -/
def lft (P : Fin 128 → Fin 128 → EReal) (i j : Fin 128) : EReal :=
  if h : 0 < j.val then P i ⟨j.val - 1, by omega⟩ else 0
/-- The neighbour to the right, 0 at the right border. -/
def rgt (P : Fin 128 → Fin 128 → EReal) (i j : Fin 128) : EReal :=
  if h : j.val + 1 < 128 then P i ⟨j.val + 1, h⟩ else 0
/-- The neighbour above, 0 at the top border. -/
def upp (P : Fin 128 → Fin 128 → EReal) (i j : Fin 128) : EReal :=
  if h : 0 < i.val then P ⟨i.val - 1, by omega⟩ j else 0
/-- The neighbour below, 0 at the bottom border. -/
def dwn (P : Fin 128 → Fin 128 → EReal) (i j : Fin 128) : EReal :=
  if h : i.val + 1 < 128 then P ⟨i.val + 1, h⟩ j else 0

/-- The sum of the four squared differences of directional differences of two images, at one entry. -/
def edge (P Q : Fin 128 → Fin 128 → EReal) (i j : Fin 128) : EReal :=
  ((((P i j - lft P i j) - (Q i j - lft Q i j)) * ((P i j - lft P i j) - (Q i j - lft Q i j))
    + ((P i j - rgt P i j) - (Q i j - rgt Q i j)) * ((P i j - rgt P i j) - (Q i j - rgt Q i j)))
    + ((P i j - upp P i j) - (Q i j - upp Q i j)) * ((P i j - upp P i j) - (Q i j - upp Q i j)))
    + ((P i j - dwn P i j) - (Q i j - dwn Q i j)) * ((P i j - dwn P i j) - (Q i j - dwn Q i j))

/-- Batch member `b` of an input array of shape [16, 3, 512, 512], by channel, row and column. -/
def member (X : (⟨4, ![16, 3, 512, 512]⟩ : Shape).Idx → EReal) (b : Fin 16) : Fin 3 → Fin 512 → Fin 512 → EReal :=
  fun ch r c => X (ValueIdx.ix4 b ch r c)

/-- THE RESULT, one function of the two input arrays, index by index: at (b, 0, i, j) the sum of the four squared
    differences between the pooled channel means of member b of the first array and of the second. -/
def result (X E : (⟨4, ![16, 3, 512, 512]⟩ : Shape).Idx → EReal) : (⟨4, ![16, 1, 128, 128]⟩ : Shape).Idx → EReal :=
  fun i => edge (pooled (member X (i 0))) (pooled (member E (i 0))) (i 2) (i 3)

/-! ## Sums against the block indicator -/

/-- A sum of 512 terms against the indicator of block `o` (on the left) is the sum over the block's four members. -/
theorem pool_rows_sum (o : Fin 128) (g : Fin 512 → EReal) :
    ∑ k : Fin 512, (if k.val / 4 = o.val then (1 : EReal) else 0) * g k = ∑ a : Fin 4, g (blockRow o a) := by
  rw [← sum_tiles (A := 128) (B := 4) (N := 512) rfl]
  have hin : ∀ (t : Fin 128) (r : Fin 4), (tileRow (A := 128) (B := 4) (N := 512) rfl t r).val / 4 = t.val := by
    intro t r; rw [tileRow_val]; have := r.isLt; omega
  calc ∑ t : Fin 128, ∑ r : Fin 4, (if (tileRow (A := 128) (B := 4) (N := 512) rfl t r).val / 4 = o.val then (1 : EReal) else 0)
          * g (tileRow (A := 128) (B := 4) (N := 512) rfl t r)
      = ∑ t : Fin 128, if t = o then ∑ r : Fin 4, g (tileRow (A := 128) (B := 4) (N := 512) rfl t r) else 0 := by
        refine Finset.sum_congr rfl fun t _ => ?_
        by_cases hto : t = o
        · rw [if_pos hto]
          refine Finset.sum_congr rfl fun r _ => ?_
          rw [hin, if_pos (congrArg Fin.val hto), one_mul]
        · rw [if_neg hto]
          refine Finset.sum_eq_zero fun r _ => ?_
          rw [hin, if_neg (fun h => hto (Fin.ext h)), zero_mul]
    _ = ∑ r : Fin 4, g (blockRow o r) := by
        rw [Finset.sum_ite_eq' Finset.univ o, if_pos (Finset.mem_univ o)]

/-- The same with the indicator on the right. -/
theorem pool_cols_sum (q : Fin 128) (g : Fin 512 → EReal) :
    ∑ k : Fin 512, g k * (if k.val / 4 = q.val then (1 : EReal) else 0) = ∑ d : Fin 4, g (blockRow q d) := by
  rw [← pool_rows_sum q g]
  exact Finset.sum_congr rfl fun k _ => mul_comm _ _

/-! ## Sums against the super- and sub-diagonal -/

/-- Row `i` of an image times the superdiagonal matrix (entry (k, j) is 1 iff j = k + 1): the entry to the left. -/
theorem sum_mul_superdiag (P : Fin 128 → Fin 128 → EReal) (i j : Fin 128) :
    ∑ k : Fin 128, P i k * (if j.val = k.val + 1 then (1 : EReal) else 0) = lft P i j := by
  unfold lft
  by_cases h : 0 < j.val
  · rw [dif_pos h, Finset.sum_eq_single (⟨j.val - 1, by omega⟩ : Fin 128)]
    · rw [if_pos (show j.val = j.val - 1 + 1 by omega), mul_one]
    · intro k _ hk
      rw [if_neg (fun e => hk (Fin.ext (show k.val = j.val - 1 by omega))), mul_zero]
    · intro hn; exact absurd (Finset.mem_univ _) hn
  · rw [dif_neg h]
    refine Finset.sum_eq_zero fun k _ => ?_
    rw [if_neg (by omega), mul_zero]

/-- Row `i` of an image times the subdiagonal matrix (entry (k, j) is 1 iff k = j + 1): the entry to the right. -/
theorem sum_mul_subdiag (P : Fin 128 → Fin 128 → EReal) (i j : Fin 128) :
    ∑ k : Fin 128, P i k * (if k.val = j.val + 1 then (1 : EReal) else 0) = rgt P i j := by
  unfold rgt
  by_cases h : j.val + 1 < 128
  · rw [dif_pos h, Finset.sum_eq_single (⟨j.val + 1, h⟩ : Fin 128)]
    · rw [if_pos rfl, mul_one]
    · intro k _ hk
      rw [if_neg (fun e => hk (Fin.ext e)), mul_zero]
    · intro hn; exact absurd (Finset.mem_univ _) hn
  · rw [dif_neg h]
    refine Finset.sum_eq_zero fun k _ => ?_
    rw [if_neg (by have := k.isLt; omega), mul_zero]

/-- The subdiagonal matrix (entry (i, k) is 1 iff i = k + 1) times column `j` of an image: the entry above. -/
theorem sum_subdiag_mul (P : Fin 128 → Fin 128 → EReal) (i j : Fin 128) :
    ∑ k : Fin 128, (if i.val = k.val + 1 then (1 : EReal) else 0) * P k j = upp P i j := by
  unfold upp
  by_cases h : 0 < i.val
  · rw [dif_pos h, Finset.sum_eq_single (⟨i.val - 1, by omega⟩ : Fin 128)]
    · rw [if_pos (show i.val = i.val - 1 + 1 by omega), one_mul]
    · intro k _ hk
      rw [if_neg (fun e => hk (Fin.ext (show k.val = i.val - 1 by omega))), zero_mul]
    · intro hn; exact absurd (Finset.mem_univ _) hn
  · rw [dif_neg h]
    refine Finset.sum_eq_zero fun k _ => ?_
    rw [if_neg (by omega), zero_mul]

/-- The superdiagonal matrix (entry (i, k) is 1 iff k = i + 1) times column `j` of an image: the entry below. -/
theorem sum_superdiag_mul (P : Fin 128 → Fin 128 → EReal) (i j : Fin 128) :
    ∑ k : Fin 128, (if k.val = i.val + 1 then (1 : EReal) else 0) * P k j = dwn P i j := by
  unfold dwn
  by_cases h : i.val + 1 < 128
  · rw [dif_pos h, Finset.sum_eq_single (⟨i.val + 1, h⟩ : Fin 128)]
    · rw [if_pos rfl, one_mul]
    · intro k _ hk
      rw [if_neg (fun e => hk (Fin.ext e)), zero_mul]
    · intro hn; exact absurd (Finset.mem_univ _) hn
  · rw [dif_neg h]
    refine Finset.sum_eq_zero fun k _ => ?_
    rw [if_neg (by have := k.isLt; omega), zero_mul]

/-! ## The two words: 16 and its reciprocal -/

/-- The word 16.0 is the real number 16. -/
theorem w16_eq : w16 = ((16 : ℝ) : EReal) := by
  simp [w16, Ideal.ofBits, Ideal.ieee, -EReal.coe_mul]; norm_num

/-- The word 0.0625 is the real number 1/16. -/
theorem w16inv_eq : w16inv = ((1 / 16 : ℝ) : EReal) := by
  simp [w16inv, Ideal.ofBits, Ideal.ieee, -EReal.coe_mul]; norm_num

/-- Multiplying by the word 0.0625 is dividing by the word 16.0, on every extended real. -/
theorem mul_sixteenth (x : EReal) : x * w16inv = Ideal.div x w16 := by
  rw [w16_eq, w16inv_eq, Ideal.div_coe (by norm_num : (16 : ℝ) ≠ 0)]

end Cert.EdgeSpec

end
-- ==== Proof.LibMatmulNN.lean ====
/-
  A plain matrix product read at an index, at the ideal values.

  For an M×K matrix A and a K×N matrix B, the product that contracts axis 1 of A with axis 0 of B (dimension numbers
  [1], [0], [0], [1], no batch axis: A · B) has at (a, b) the entry

      acc (a, b) + ∑ c < K, A (a, c) · B (c, b)

  on the extended reals, and just the sum when the accumulator is the zero splat. The index of the contraction is
  the one coordinate c; the operand indices at output (a, b) and contraction position c are (a, c) and (c, b).
-/
import Idealize.ShloMosaic.Lib.ValueIdx
import Idealize.ShloMosaic.PureOps.Ideal.Laws

noncomputable section

open scoped BigOperators

namespace Idealize.ShloMosaic.MatmulNN

open Idealize.ShloMosaic Idealize.ShloMosaic.ValueIdx

variable {M K N : Nat}

/-- The left operand's index at output (a, b) and contraction position c is (a, c). -/
theorem lhsIdx_plain (a : Fin M) (b : Fin N) (c : Fin K) :
    (DotDims.plain M K N).lhsIdx (ix2 a b) ((contrEquiv1 (DotDims.plain M K N) K rfl rfl).symm c) = ix2 a c := by
  have c2 := contrEquiv1_symm_val (DotDims.plain M K N) K rfl rfl c
  funext ax; apply Fin.ext
  match ax with
  | ⟨0, _⟩ => simp [DotDims.lhsIdx, DotDims.plain]; rfl
  | ⟨1, _⟩ => simp [DotDims.lhsIdx, DotDims.plain]; exact c2

/-- The right operand's index at output (a, b) and contraction position c is (c, b). -/
theorem rhsIdx_plain (a : Fin M) (b : Fin N) (c : Fin K) :
    (DotDims.plain M K N).rhsIdx (ix2 a b) ((contrEquiv1 (DotDims.plain M K N) K rfl rfl).symm c) = ix2 c b := by
  have c2 := contrEquiv1_symm_val (DotDims.plain M K N) K rfl rfl c
  funext ax; apply Fin.ext
  match ax with
  | ⟨0, _⟩ => simp [DotDims.rhsIdx, DotDims.plain]; exact c2
  | ⟨1, _⟩ => simp [DotDims.rhsIdx, DotDims.plain]; rfl

/-- A · B accumulated onto `acc`, at (a, b): the accumulator's entry plus the sum over the contracted coordinate. -/
theorem matmul_apply {φ₁ φ₂ : FTy} (prec : Option ContractPrecision)
    (A : FVec Ideal ⟨2, ![M, K]⟩ φ₁) (B : FVec Ideal ⟨2, ![K, N]⟩ φ₂) (acc : FVec Ideal ⟨2, ![M, N]⟩ .f32) (a : Fin M) (b : Fin N) :
    FloatOps.matmul (DotDims.plain M K N) prec A B acc (ix2 a b)
      = acc (ix2 a b) + ∑ c : Fin K, A (ix2 a c) * B (ix2 c b) := by
  rw [Ideal.matmul_apply, ← Equiv.sum_comp (contrEquiv1 (DotDims.plain M K N) K rfl rfl).symm]
  refine congrArg (acc (ix2 a b) + ·) (Finset.sum_congr rfl fun c _ => ?_)
  rw [lhsIdx_plain, rhsIdx_plain]

/-- A · B into the zero splat, at (a, b): the sum over the contracted coordinate. -/
theorem matmul_zero_apply {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  rw [lhsIdx_plain, rhsIdx_plain]

end Idealize.ShloMosaic.MatmulNN

end
-- ==== Proof.Body.lean ====
/-
  The kernel's body at the ideal values, read at an index.

  At one grid point the body loads one batch member of each input ([1, 3, 512, 512]) and six constant matrices of zeros
  and ones: the row-pooling matrix (entry (o, k) is 1 iff column k lies in block o of four), its transpose, and the
  super- and sub-diagonal matrices of order 128. It forms the channel mean, pools it 4 × 4 by two products with the
  pooling matrices and the factor 0.0625, shifts each pooled image one step in each of the four directions by a
  product with a diagonal matrix, and stores the sum of the four squared differences of directional differences.

  Every product is a finite sum on the extended reals; against a 0/1 matrix it collapses to the few terms where the
  matrix is 1 (Spec.lean). Nothing here needs an entry to be finite.
-/
import proofs.«124903_j84370337562972_1_alg».proof.Proof.Gen.KernelIdeal.Frame
import proofs.«124903_j84370337562972_1_alg».proof.Proof.Spec
import proofs.«124903_j84370337562972_1_alg».proof.Proof.LibMatmulNN
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.TcCoe Idealize.ShloMosaic.ValueIdx
open Cert.EdgeSpec Cert.Lib.TileSum

/-- One batch member's block of an input, by channel, row and column. -/
def img (x : Vec Ideal S1x3x512x512 .f32) : Fin 3 → Fin 512 → Fin 512 → EReal := fun ch r c => x (ix4 (0 : Fin 1) ch r c)

/-- The three matmul records are the plain product A · B at their extents. -/
theorem dot1_eq : dot_S128x512_S512x512_S128x512_1_0_0_1_n_n = DotDims.plain 128 512 512 := rfl
theorem dot2_eq : dot_S128x512_S512x128_S128x128_1_0_0_1_n_n = DotDims.plain 128 512 128 := rfl
theorem dot3_eq : dot_S128x128_S128x128_S128x128_1_0_0_1_n_n = DotDims.plain 128 128 128 := rfl

/-- The channel mean the body computes from a loaded block, at (r, c): the sum over the three channels divided by
    the word 3.0. -/
theorem channelMean_apply (x : Vec Ideal S1x3x512x512 .f32) (r c : Fin 512) :
    divf (multiReduction .add [0] S512x512 (shapeCast S3x512x512 x shapeCasts_S1x3x512x512_S3x512x512) 0x00000000#32
        reduces_S3x512x512_S512x512 (.inl rfl) rfl) (broadcast S512x512 (Scalar.ofBits (F := Ideal) .f32 0x40400000#32)) (ix2 r c)
      = gray (img x) r c := by
  rw [divf_apply]
  unfold gray img
  refine congrArg₂ Ideal.div ?_ rfl
  refine (Ideal.multiReduction_add_single (shapeCast S3x512x512 x shapeCasts_S1x3x512x512_S3x512x512) 0x00000000#32
    reduces_S3x512x512_S512x512 (.inl rfl) rfl (ix2 r c)).trans ?_
  refine Finset.sum_congr rfl fun ch _ => ?_
  have hl : reduces_S3x512x512_S512x512.lift (ix2 r c) ch = ix3 ch r c :=
    funext fun a => Fin.ext (by match a with | ⟨0, _⟩ => rfl | ⟨1, _⟩ => rfl | ⟨2, _⟩ => rfl)
  rw [hl]
  exact shapeCast_1abc_abc_apply x shapeCasts_S1x3x512x512_S3x512x512 ch r c

/-- The row-pooled channel mean `pw · mean` at (o, j): against the block indicator, the sum over block o's four rows. -/
theorem rowPool_apply (v0 : Vec Ideal S128x512 .bf16) (x : Vec Ideal S1x3x512x512 .f32)
    (h0 : ∀ (o : Fin 128) (k : Fin 512), v0 (ix2 o k) = if k.val / 4 = o.val then 1 else 0) (o : Fin 128) (j : Fin 512) :
    k0_pay9 v0 x (ix2 o j) = ∑ a : Fin 4, gray (img x) (blockRow o a) j := by
  unfold k0_pay9 k0_pay2
  rw [truncf_apply, shapeCast_self, dot1_eq]
  refine (MatmulNN.matmul_zero_apply none _ _ o j).trans ?_
  rw [← pool_rows_sum o (fun k => gray (img x) k j)]
  refine Finset.sum_congr rfl fun k _ => ?_
  rw [h0 o k, truncf_apply, channelMean_apply]

/-- A row-pooled array times the column-pooling matrix, then the word 0.0625, at (o, q): the sum over block q's four
    columns, times 0.0625. -/
theorem colPool_apply (T : FVec Ideal S128x512 .bf16) (v3 : FVec Ideal S512x128 .bf16)
    (h3 : ∀ (k : Fin 512) (q : Fin 128), v3 (ix2 k q) = if k.val / 4 = q.val then 1 else 0) (o q : Fin 128) :
    mulf (matmul dot_S128x512_S512x128_S128x128_1_0_0_1_n_n none T v3 (constant S128x128 .f32 0x00000000#32))
        (broadcast S128x128 (Scalar.ofBits (F := Ideal) .f32 0x3D800000#32)) (ix2 o q)
      = (∑ d : Fin 4, T (ix2 o (blockRow q d))) * w16inv := by
  rw [mulf_apply, dot2_eq]
  refine congrArg₂ (· * ·) ?_ rfl
  refine (MatmulNN.matmul_zero_apply none _ _ o q).trans ?_
  rw [← pool_cols_sum q (fun k => T (ix2 o k))]
  exact Finset.sum_congr rfl fun k _ => by rw [h3 k q]

/-- The pooled image of the first input, as the body computes it (two products with the 0/1 pooling matrices, then
    0.0625), is the 4 × 4 average pool of the channel mean. -/
theorem pooledFirst_apply (v0 : Vec Ideal S128x512 .bf16) (v2 : Vec Ideal S512x128 .bf16) (x : Vec Ideal S1x3x512x512 .f32)
    (h0 : ∀ (o : Fin 128) (k : Fin 512), v0 (ix2 o k) = if k.val / 4 = o.val then 1 else 0)
    (h2 : ∀ (k : Fin 512) (q : Fin 128), v2 (ix2 k q) = if k.val / 4 = q.val then 1 else 0) (o q : Fin 128) :
    k0_pay8 v0 v2 x (ix2 o q) = pooled (img x) o q := by
  show mulf (matmul dot_S128x512_S512x128_S128x128_1_0_0_1_n_n none (k0_pay9 v0 x) (k0_pay3 v2) (constant S128x128 .f32 0x00000000#32))
        (broadcast S128x128 (Scalar.ofBits (F := Ideal) .f32 0x3D800000#32)) (ix2 o q) = _
  have h3 : ∀ (k : Fin 512) (q : Fin 128), k0_pay3 v2 (ix2 k q) = if k.val / 4 = q.val then 1 else 0 := by
    intro k q; unfold k0_pay3; rw [shapeCast_self]; exact h2 k q
  rw [colPool_apply _ _ h3 o q, mul_sixteenth]
  unfold pooled
  refine congrArg₂ Ideal.div ?_ rfl
  rw [Finset.sum_comm]
  exact Finset.sum_congr rfl fun d _ => rowPool_apply v0 x h0 o (blockRow q d)

/-- The pooled image of the second input: the body finishes it from the row-pooled array the first part hands on. -/
theorem pooledSecond_apply (v0 : Vec Ideal S128x512 .bf16) (v3 : FVec Ideal S512x128 .bf16) (x : Vec Ideal S1x3x512x512 .f32)
    (h0 : ∀ (o : Fin 128) (k : Fin 512), v0 (ix2 o k) = if k.val / 4 = o.val then 1 else 0)
    (h3 : ∀ (k : Fin 512) (q : Fin 128), v3 (ix2 k q) = if k.val / 4 = q.val then 1 else 0) (o q : Fin 128) :
    mulf (matmul dot_S128x512_S512x128_S128x128_1_0_0_1_n_n none (k0_pay9 v0 x) v3 (constant S128x128 .f32 0x00000000#32))
        (broadcast S128x128 (Scalar.ofBits (F := Ideal) .f32 0x3D800000#32)) (ix2 o q) = pooled (img x) o q := by
  rw [colPool_apply _ _ h3 o q, mul_sixteenth]
  unfold pooled
  refine congrArg₂ Ideal.div ?_ rfl
  rw [Finset.sum_comm]
  exact Finset.sum_congr rfl fun d _ => rowPool_apply v0 x h0 o (blockRow q d)

/-! ## The four shifted images: a product with the super- or sub-diagonal matrix -/

/-- An image as a function of row and column. -/
abbrev asImage (p : FVec Ideal S128x128 .f32) : Fin 128 → Fin 128 → EReal := fun i j => p (ix2 i j)

theorem shiftLeft_apply (p : FVec Ideal S128x128 .f32) (v9 : FVec Ideal S128x128 .bf16)
    (h9 : ∀ k j : Fin 128, v9 (ix2 k j) = if j.val = k.val + 1 then 1 else 0) (i j : Fin 128) :
    matmul dot_S128x128_S128x128_S128x128_1_0_0_1_n_n none (truncf .bf16 p bitsLt_bf16_f32) v9 (constant S128x128 .f32 0x00000000#32) (ix2 i j)
      = lft (asImage p) i j := by
  rw [dot3_eq]
  refine (MatmulNN.matmul_zero_apply none _ _ i j).trans ?_
  rw [← sum_mul_superdiag (asImage p) i j]
  exact Finset.sum_congr rfl fun k _ => by rw [h9 k j, truncf_apply]

theorem shiftRight_apply (p : FVec Ideal S128x128 .f32) (v11 : FVec Ideal S128x128 .bf16)
    (h11 : ∀ k j : Fin 128, v11 (ix2 k j) = if k.val = j.val + 1 then 1 else 0) (i j : Fin 128) :
    matmul dot_S128x128_S128x128_S128x128_1_0_0_1_n_n none (truncf .bf16 p bitsLt_bf16_f32) v11 (constant S128x128 .f32 0x00000000#32) (ix2 i j)
      = rgt (asImage p) i j := by
  rw [dot3_eq]
  refine (MatmulNN.matmul_zero_apply none _ _ i j).trans ?_
  rw [← sum_mul_subdiag (asImage p) i j]
  exact Finset.sum_congr rfl fun k _ => by rw [h11 k j, truncf_apply]

theorem shiftUp_apply (p : FVec Ideal S128x128 .f32) (v7 : FVec Ideal S128x128 .bf16)
    (h7 : ∀ i k : Fin 128, v7 (ix2 i k) = if i.val = k.val + 1 then 1 else 0) (i j : Fin 128) :
    matmul dot_S128x128_S128x128_S128x128_1_0_0_1_n_n none v7 (truncf .bf16 p bitsLt_bf16_f32) (constant S128x128 .f32 0x00000000#32) (ix2 i j)
      = upp (asImage p) i j := by
  rw [dot3_eq]
  refine (MatmulNN.matmul_zero_apply none _ _ i j).trans ?_
  rw [← sum_subdiag_mul (asImage p) i j]
  exact Finset.sum_congr rfl fun k _ => by rw [h7 i k, truncf_apply]

theorem shiftDown_apply (p : FVec Ideal S128x128 .f32) (v5 : FVec Ideal S128x128 .bf16)
    (h5 : ∀ i k : Fin 128, v5 (ix2 i k) = if k.val = i.val + 1 then 1 else 0) (i j : Fin 128) :
    matmul dot_S128x128_S128x128_S128x128_1_0_0_1_n_n none v5 (truncf .bf16 p bitsLt_bf16_f32) (constant S128x128 .f32 0x00000000#32) (ix2 i j)
      = dwn (asImage p) i j := by
  rw [dot3_eq]
  refine (MatmulNN.matmul_zero_apply none _ _ i j).trans ?_
  rw [← sum_superdiag_mul (asImage p) i j]
  exact Finset.sum_congr rfl fun k _ => by rw [h5 i k, truncf_apply]

/-- The stored value at (0, 0, i, j): the sum of the four squared differences, of the first pooled image and of the
    second, finished here from its row-pooled array. -/
theorem stored_apply (v3 : FVec Ideal S512x128 .bf16) (v5 v7 v9 v11 : FVec Ideal S128x128 .bf16)
    (p : FVec Ideal S128x128 .f32) (T : FVec Ideal S128x512 .bf16)
    (h5 : ∀ i k : Fin 128, v5 (ix2 i k) = if k.val = i.val + 1 then 1 else 0)
    (h7 : ∀ i k : Fin 128, v7 (ix2 i k) = if i.val = k.val + 1 then 1 else 0)
    (h9 : ∀ k j : Fin 128, v9 (ix2 k j) = if j.val = k.val + 1 then 1 else 0)
    (h11 : ∀ k j : Fin 128, v11 (ix2 k j) = if k.val = j.val + 1 then 1 else 0) (i j : Fin 128) :
    k0_pay1 v3 v5 v7 v9 v11 p T (ix4 (0 : Fin 1) (0 : Fin 1) i j)
      = edge (asImage p) (asImage (mulf (matmul dot_S128x512_S512x128_S128x128_1_0_0_1_n_n none T v3 (constant S128x128 .f32 0x00000000#32))
          (broadcast S128x128 (Scalar.ofBits (F := Ideal) .f32 0x3D800000#32)))) i j := by
  unfold k0_pay1
  refine (shapeCast_apply _ shapeCasts_S128x128_S1x1x128x128 (ix4 (0 : Fin 1) (0 : Fin 1) i j) (ix2 i j) (by
    rw [Shape.rowMajor_val_four, Shape.rowMajor_val_two]
    show i.val * 128 + j.val = (((0 : ℕ) * 1 + 0) * 128 + i.val) * 128 + j.val
    omega)).trans ?_
  simp only [addf_apply, mulf_apply, subf_apply, shiftLeft_apply _ _ h9, shiftRight_apply _ _ h11, shiftUp_apply _ _ h7,
    shiftDown_apply _ _ h5]
  rfl

/-! ## What the body leaves in the output block -/

theorem zeros4 : (![0, 0, 0, 0] : Fin 4 → Nat) = fun _ => 0 := funext fun a => by fin_cases a <;> rfl
theorem zeros2 : (![0, 0] : Fin 2 → Nat) = fun _ => 0 := funext fun a => by fin_cases a <;> rfl

/-- The output block after the body, at (0, 0, i, j), from the input blocks — the two image blocks and the six 0/1
    matrices, known entry by entry —: the sum of the four squared differences of the two pooled channel means. -/
theorem out_apply (x0 x1 : Vec Ideal S1x3x512x512 .f32) (x2 : Vec Ideal S128x512 .bf16) (x3 : Vec Ideal S512x128 .bf16)
    (x4 x5 x6 x7 : Vec Ideal S128x128 .bf16)
    (h2 : ∀ (o : Fin 128) (k : Fin 512), x2 (ix2 o k) = if k.val / 4 = o.val then 1 else 0)
    (h3 : ∀ (k : Fin 512) (q : Fin 128), x3 (ix2 k q) = if k.val / 4 = q.val then 1 else 0)
    (h4 : ∀ i k : Fin 128, x4 (ix2 i k) = if k.val = i.val + 1 then 1 else 0)
    (h5 : ∀ i k : Fin 128, x5 (ix2 i k) = if i.val = k.val + 1 then 1 else 0)
    (h6 : ∀ k j : Fin 128, x6 (ix2 k j) = if j.val = k.val + 1 then 1 else 0)
    (h7 : ∀ k j : Fin 128, x7 (ix2 k j) = if k.val = j.val + 1 then 1 else 0) (i j : Fin 128) :
    out0_8 x0 x1 x2 x3 x4 x5 x6 x7 (ix4 (0 : Fin 1) (0 : Fin 1) i j) = edge (pooled (img x0)) (pooled (img x1)) i j := by
  unfold out0_8
  rw [View.canon_unit_zero zeros4]
  simp only [View.ld_unit_zero (S := S1x3x512x512) zeros4, View.ld_unit_zero (S := S128x512) zeros2,
    View.ld_unit_zero (S := S512x128) zeros2, View.ld_unit_zero (S := S128x128) zeros2]
  have e3 : ∀ (k : Fin 512) (q : Fin 128), k0_pay3 x3 (ix2 k q) = if k.val / 4 = q.val then 1 else 0 := by
    intro k q; unfold k0_pay3; rw [shapeCast_self]; exact h3 k q
  have e4 : ∀ i k : Fin 128, k0_pay4 x4 (ix2 i k) = if k.val = i.val + 1 then 1 else 0 := by
    intro i k; unfold k0_pay4; rw [shapeCast_self]; exact h4 i k
  have e5 : ∀ i k : Fin 128, k0_pay5 x5 (ix2 i k) = if i.val = k.val + 1 then 1 else 0 := by
    intro i k; unfold k0_pay5; rw [shapeCast_self]; exact h5 i k
  have e6 : ∀ k j : Fin 128, k0_pay6 x6 (ix2 k j) = if j.val = k.val + 1 then 1 else 0 := by
    intro k j; unfold k0_pay6; rw [shapeCast_self]; exact h6 k j
  have e7 : ∀ k j : Fin 128, k0_pay7 x7 (ix2 k j) = if k.val = j.val + 1 then 1 else 0 := by
    intro k j; unfold k0_pay7; rw [shapeCast_self]; exact h7 k j
  refine (stored_apply (k0_pay3 x3) (k0_pay4 x4) (k0_pay5 x5) (k0_pay6 x6) (k0_pay7 x7) (k0_pay8 x2 x3 x0) (k0_pay9 x2 x1)
    e4 e5 e6 e7 i j).trans ?_
  have eP : asImage (k0_pay8 x2 x3 x0) = pooled (img x0) :=
    funext fun o => funext fun q => pooledFirst_apply x2 x3 x0 h2 h3 o q
  have eQ : asImage (mulf (matmul dot_S128x512_S512x128_S128x128_1_0_0_1_n_n none (k0_pay9 x2 x1) (k0_pay3 x3) (constant S128x128 .f32 0x00000000#32))
      (broadcast S128x128 (Scalar.ofBits (F := Ideal) .f32 0x3D800000#32))) = pooled (img x1) :=
    funext fun o => funext fun q => pooledSecond_apply x2 (k0_pay3 x3) x1 h2 e3 o q
  rw [eP, eQ]

end Cert.KernelIdeal.Body

end
-- ==== Proof.HostMats.lean ====
/-
  The six constant matrices of zeros and ones that the program builds on the host before its kernel, each read at
  an index over the extended reals.

  * The pooling matrix P (128 × 512): P[o, k] = 1 when k / 4 = o (the quotient rounded down), else 0; and its
    transpose (512 × 128).
  * The superdiagonal S (128 × 128), built twice: S[i, j] = 1 when j = i + 1, else 0; and its transpose, the
    subdiagonal, each time.

  Each array is a chain of pointwise word operations over index arrays (an iota broadcast along rows or columns),
  closed by a comparison for equality whose one-bit answer is converted to a number. Read at one index, the chain is
  a computation on two 32-bit words, the words of the row and of the column: the floor division by four, lowered as
  "the quotient rounded toward zero, less one when the signs differ and the remainder is not zero", is checked on
  every column 0 … 511 by evaluation; the successor i + 1 is the word of i + 1; and two numbers below 2³² have equal
  words exactly when they are equal.
-/
import proofs.«124903_j84370337562972_1_alg».proof.Proof.Gen.KernelIdeal.Frame
import Idealize.ShloMosaic.Lib.Pipeline.Value
import Idealize.ShloMosaic.Lib.ValueIdx
import Idealize.ShloMosaic.Lib.IdealHost
import Idealize.ShloMosaic.Lib.WordArith

noncomputable section

namespace Cert.KernelIdeal.HostMats

open Cert.KernelIdeal Cert.KernelIdeal.Gen Idealize.ShloMosaic Idealize.ShloMosaic.TcCoe Idealize.ShloMosaic.ValueIdx Idealize.SL.Sem

/-! ## Word facts -/

/-- The sign of a 32-bit word read signed: 0, −1 or 1. -/
def sgnW (x : BitVec 32) : BitVec 32 := if x = 0 then 0 else if x.msb then -1 else 1

/-- The lowered floor division by four — the quotient rounded toward zero, less one when the operands' signs differ
    and the remainder is not zero — of the word of a number k < 512 is the word of k / 4: the sign of k is 0 or 1
    and that of 4 is 1, so the correction would fire only at k = 0, where the remainder is zero. Checked column by
    column by evaluation. -/
theorem floordiv4_word : ∀ k : Fin 512,
    Scalar.select (IntOp.andi (IntOp.cmpi .ne (sgnW (BitVec.ofNat 32 k.val)) (sgnW 4#32))
        (IntOp.cmpi .ne (IntOp.remsi .host (BitVec.ofNat 32 k.val) 4#32) 0#32))
      (IntOp.subi (IntOp.divsi .host (BitVec.ofNat 32 k.val) 4#32) 1#32)
      (IntOp.divsi .host (BitVec.ofNat 32 k.val) 4#32) = BitVec.ofNat 32 (k.val / 4) := by
  decide +kernel

/-- The one-bit answer of the equality test of the words of two numbers below 2³², converted to a number, is 1 when
    the numbers are equal and 0 otherwise: below 2³² a number is determined by its word. -/
theorem eqBit_real (a b : ℕ) (ha : a < 2 ^ 32) (hb : b < 2 ^ 32) :
    (FloatOps.uitofp (F := Ideal) .bf16 (IntOp.cmpi .eq (BitVec.ofNat 32 a) (BitVec.ofNat 32 b)) : EReal)
      = if a = b then 1 else 0 := by
  show (((IntOp.cmpi .eq (BitVec.ofNat 32 a) (BitVec.ofNat 32 b)).toNat : ℝ) : EReal) = _
  by_cases h : a = b
  · subst h; rw [if_pos rfl]; simp [IntOp.cmpi]
  · rw [if_neg h]
    have hne : BitVec.ofNat 32 a ≠ BitVec.ofNat 32 b := fun e => h (by
      have := congrArg BitVec.toNat e
      simp only [BitVec.toNat_ofNat] at this
      rw [Nat.mod_eq_of_lt ha, Nat.mod_eq_of_lt hb] at this; exact this)
    simp [IntOp.cmpi, hne]

/-! ## The pooling matrix -/

/-- The column index as a word, in one row of 512. -/
abbrev colWord : IVec S1x512 32 := broadcastInDim S1x512 ![1] bcast_S512_S1x512_1 (iotaInDim S512 32 0)
/-- The constant four. -/
abbrev four : IVec S_ 32 := constantI S_ 32 4#32
/-- The column index divided by four, rounded toward zero. -/
abbrev quot : IVec S1x512 32 := Host.divsi colWord (broadcastInDim S1x512 ![] bcast_S_S1x512 four)
/-- The lowered floor division of the column index by four. -/
abbrev fdiv : IVec S1x512 32 :=
  select (andi (cmpi .ne (signi colWord) (broadcastInDim S1x512 ![] bcast_S_S1x512 (signi four)))
      (cmpi .ne (Host.remsi colWord (broadcastInDim S1x512 ![] bcast_S_S1x512 four))
        (broadcastInDim S1x512 ![] bcast_S_S1x512 (constantI S_ 32 0#32))))
    (subi quot (broadcastInDim S1x512 ![] bcast_S_S1x512 (constantI S_ 32 1#32)))
    quot
/-- The row index as a word, over 128 × 512. -/
abbrev rowWord512 : IVec S128x512 32 :=
  broadcastInDim S128x512 ![0, 1] bcast_S128x1_S128x512_0_1 (broadcastInDim S128x1 ![0] bcast_S128_S128x1_0 (iotaInDim S128 32 0))
/-- The pooling matrix as the host builds it: the test "column / 4 = row" as a number. -/
abbrev poolRows : FVec Ideal S128x512 .bf16 :=
  uitofp (F := Ideal) .bf16 (cmpi .eq (broadcastInDim S128x512 ![0, 1] bcast_S1x512_S128x512_0_1 fdiv) rowWord512)

/-- At column k the lowered floor division holds the word of k / 4: each operation read at the index is the scalar
    operation on the word of k, and the scalar fact is the one checked above. -/
theorem fdiv_apply (z : Fin 1) (k : Fin 512) : fdiv (ix2 z k) = BitVec.ofNat 32 (k.val / 4) :=
  Eq.trans rfl (floordiv4_word k)

/-- The pooling matrix at row o and column k. -/
theorem poolRows_term_apply (o : Fin 128) (k : Fin 512) :
    (poolRows : S128x512.Idx → EReal) (ix2 o k) = if k.val / 4 = o.val then 1 else 0 := by
  have e : (poolRows : S128x512.Idx → EReal) (ix2 o k)
      = FloatOps.uitofp (F := Ideal) .bf16 (IntOp.cmpi .eq (fdiv (ix2 (0 : Fin 1) k)) (BitVec.ofNat 32 o.val)) := rfl
  rw [e, fdiv_apply]
  exact eqBit_real _ _ (by have := k.isLt; omega) (by have := o.isLt; omega)

/-! ## The superdiagonal -/

/-- The column index as a word, over 128 × 128. -/
abbrev colWord128 : IVec S128x128 32 :=
  broadcastInDim S128x128 ![0, 1] bcast_S1x128_S128x128_0_1 (broadcastInDim S1x128 ![1] bcast_S128_S1x128_1 (iotaInDim S128 32 0))
/-- The row index plus one as a word, over 128 × 128. -/
abbrev rowSucc128 : IVec S128x128 32 :=
  broadcastInDim S128x128 ![0, 1] bcast_S128x1_S128x128_0_1
    (addi (broadcastInDim S128x1 ![0] bcast_S128_S128x1_0 (iotaInDim S128 32 0))
      (broadcastInDim S128x1 ![] bcast_S_S128x1 (constantI S_ 32 1#32)))
/-- The superdiagonal as the host builds it: the test "column = row + 1" as a number. -/
abbrev superdiag : FVec Ideal S128x128 .bf16 := uitofp (F := Ideal) .bf16 (cmpi .eq colWord128 rowSucc128)

/-- The superdiagonal at row i and column j: the word of i plus the word of one is the word of i + 1. -/
theorem superdiag_term_apply (i j : Fin 128) :
    (superdiag : S128x128.Idx → EReal) (ix2 i j) = if j.val = i.val + 1 then 1 else 0 := by
  have e : (superdiag : S128x128.Idx → EReal) (ix2 i j)
      = FloatOps.uitofp (F := Ideal) .bf16
          (IntOp.cmpi .eq (BitVec.ofNat 32 j.val) (BitVec.ofNat 32 i.val + BitVec.ofNat 32 1)) := rfl
  rw [e, ← BitVec.ofNat_add]
  exact eqBit_real _ _ (by have := j.isLt; omega) (by have := i.isLt; omega)

/-! ## Transposes -/

/-- The transpose of a 128 × 512 array read at (k, q) is the array at (q, k). -/
theorem transpose_512x128_apply {α : Type} (x : S128x512.Idx → α) (k : Fin 512) (q : Fin 128) :
    transpose S512x128 [1, 0] x transposes_S128x512_S512x128_1_0 (ix2 k q) = x (ix2 q k) :=
  transpose_apply [1, 0] x transposes_S128x512_S512x128_1_0 (ix2 k q) (ix2 q k)
    (fun b => match b with | ⟨0, _⟩ => rfl | ⟨1, _⟩ => rfl)

/-- The transpose of a 128 × 128 array read at (i, j) is the array at (j, i). -/
theorem transpose_128x128_apply {α : Type} (x : S128x128.Idx → α) (i j : Fin 128) :
    transpose S128x128 [1, 0] x transposes_S128x128_S128x128_1_0 (ix2 i j) = x (ix2 j i) :=
  transpose_apply [1, 0] x transposes_S128x128_S128x128_1_0 (ix2 i j) (ix2 j i)
    (fun b => match b with | ⟨0, _⟩ => rfl | ⟨1, _⟩ => rfl)

/-! ## The arrays as the kernel finds them -/

variable (m : (ℓ : Loc nD τ sig) → Buf (Elt Ideal) ℓ) (c : Dev nD)

set_option maxHeartbeats 4000000 in
/-- The first matrix the kernel is handed is the pooling matrix's term. -/
theorem V_main_v8_eq : (V m c main_v8 : S128x512.Idx → EReal) = poolRows := by
  dsimp only [Gen.V]
  simp only [Gen.hostOps0, Gen.hostOps0_1, Gen.hostOps0_2, List.flatten_cons, List.flatten_nil, List.append_nil,
    List.cons_append, List.nil_append]
  after_results
  rfl

set_option maxHeartbeats 4000000 in
/-- The second is its transpose. -/
theorem V_main_v9_eq :
    (V m c main_v9 : S512x128.Idx → EReal) = transpose S512x128 [1, 0] poolRows transposes_S128x512_S512x128_1_0 := by
  dsimp only [Gen.V]
  simp only [Gen.hostOps0, Gen.hostOps0_1, Gen.hostOps0_2, List.flatten_cons, List.flatten_nil, List.append_nil,
    List.cons_append, List.nil_append]
  after_results
  rfl

set_option maxHeartbeats 4000000 in
/-- The third is the superdiagonal's term. -/
theorem V_main_v19_eq : (V m c main_v19 : S128x128.Idx → EReal) = superdiag := by
  dsimp only [Gen.V]
  simp only [Gen.hostOps0, Gen.hostOps0_1, Gen.hostOps0_2, List.flatten_cons, List.flatten_nil, List.append_nil,
    List.cons_append, List.nil_append]
  after_results

set_option maxHeartbeats 4000000 in
/-- The fourth is its transpose. -/
theorem V_main_v20_eq :
    (V m c main_v20 : S128x128.Idx → EReal) = transpose S128x128 [1, 0] superdiag transposes_S128x128_S128x128_1_0 := by
  dsimp only [Gen.V]
  simp only [Gen.hostOps0, Gen.hostOps0_1, Gen.hostOps0_2, List.flatten_cons, List.flatten_nil, List.append_nil,
    List.cons_append, List.nil_append]
  after_results

set_option maxHeartbeats 4000000 in
/-- The fifth is the superdiagonal's term again, built over other buffers by the same operations. -/
theorem V_main_v30_eq : (V m c main_v30 : S128x128.Idx → EReal) = superdiag := by
  dsimp only [Gen.V]
  simp only [Gen.hostOps0, Gen.hostOps0_1, Gen.hostOps0_2, List.flatten_cons, List.flatten_nil, List.append_nil,
    List.cons_append, List.nil_append]
  after_results

set_option maxHeartbeats 4000000 in
/-- The sixth is its transpose. -/
theorem V_main_v31_eq :
    (V m c main_v31 : S128x128.Idx → EReal) = transpose S128x128 [1, 0] superdiag transposes_S128x128_S128x128_1_0 := by
  dsimp only [Gen.V]
  simp only [Gen.hostOps0, Gen.hostOps0_1, Gen.hostOps0_2, List.flatten_cons, List.flatten_nil, List.append_nil,
    List.cons_append, List.nil_append]
  after_results

/-- The pooling matrix: entry (o, k) is 1 when k / 4 = o. -/
theorem poolRows_apply (o : Fin 128) (k : Fin 512) :
    (V m c main_v8 : S128x512.Idx → EReal) (ix2 o k) = (if k.val / 4 = o.val then 1 else 0 : EReal) := by
  rw [V_main_v8_eq]; exact poolRows_term_apply o k

/-- Its transpose: entry (k, q) is 1 when k / 4 = q. -/
theorem poolCols_apply (k : Fin 512) (q : Fin 128) :
    (V m c main_v9 : S512x128.Idx → EReal) (ix2 k q) = (if k.val / 4 = q.val then 1 else 0 : EReal) := by
  rw [V_main_v9_eq, transpose_512x128_apply]; exact poolRows_term_apply q k

/-- The superdiagonal: entry (i, j) is 1 when j = i + 1. -/
theorem superdiag19_apply (i j : Fin 128) :
    (V m c main_v19 : S128x128.Idx → EReal) (ix2 i j) = (if j.val = i.val + 1 then 1 else 0 : EReal) := by
  rw [V_main_v19_eq]; exact superdiag_term_apply i j

/-- The subdiagonal: entry (i, j) is 1 when i = j + 1. -/
theorem subdiag20_apply (i j : Fin 128) :
    (V m c main_v20 : S128x128.Idx → EReal) (ix2 i j) = (if i.val = j.val + 1 then 1 else 0 : EReal) := by
  rw [V_main_v20_eq, transpose_128x128_apply]; exact superdiag_term_apply j i

/-- The superdiagonal, second copy. -/
theorem superdiag30_apply (i j : Fin 128) :
    (V m c main_v30 : S128x128.Idx → EReal) (ix2 i j) = (if j.val = i.val + 1 then 1 else 0 : EReal) := by
  rw [V_main_v30_eq]; exact superdiag_term_apply i j

/-- The subdiagonal, second copy. -/
theorem subdiag31_apply (i j : Fin 128) :
    (V m c main_v31 : S128x128.Idx → EReal) (ix2 i j) = (if i.val = j.val + 1 then 1 else 0 : EReal) := by
  rw [V_main_v31_eq, transpose_128x128_apply]; exact superdiag_term_apply j i

end Cert.KernelIdeal.HostMats

end
-- ==== Proof.Whole.lean ====
/-
  From the blocks the grid points write to the whole result array.

  The grid has sixteen points, one per batch member. At point t the two image windows hold batch member t of the two
  arguments, the six matrix windows hold the whole constant matrices, and the output window's block is batch member t
  of the result array. The body (Body.lean), fed those blocks, leaves in the output block the specification's value
  at every entry; the sixteen blocks tile the result array, so after the run the array is the specification's
  function of the two arguments as a whole.
-/
import proofs.«124903_j84370337562972_1_alg».proof.Proof.Gen.KernelIdeal.Value
import proofs.«124903_j84370337562972_1_alg».proof.Proof.Body
import proofs.«124903_j84370337562972_1_alg».proof.Proof.HostMats
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.ShloMosaic.ValueIdx Idealize.SL.Sem
open Cert.EdgeSpec Cert.KernelIdeal.Body Cert.KernelIdeal.HostMats
open Idealize.ShloMosaic.Pipeline (Dat)

variable (m : (ℓ : Loc nD τ sig) → Buf (Elt Ideal) ℓ) (ρ : Dev nD → PrngReg)

/-- The index maps over the sixteen grid points: the two image windows and the output window move with the point along
    the batch axis and sit at block 0 on every other axis; the six matrix windows never move. -/
theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 4) = t.val ∧ win0_8.index t (1 : Fin 4) = 0 ∧ win0_8.index t (2 : Fin 4) = 0 ∧ win0_8.index t (3 : Fin 4) = 0) :=
  (by decide +kernel : ∀ t : Fin grid0.N, _)

/-- The batch member a grid point works on. -/
def batchOf (t : Fin cfg0.N) : Fin 16 := ⟨t.val, by have h : cfg0.N = 16 := N_0; have := t.isLt; omega⟩

/-- The first image window's block at point t is batch member t of the first argument. -/
theorem blk0_apply (c : Dev nD) (t : Fin cfg0.N) (ch : Fin 3) (r s : Fin 512) :
    iblk m c 0 t (ix4 (0 : Fin 1) ch r s) = V m c main_arg0 (ix4 (batchOf t) ch r s) := by
  obtain ⟨⟨a0, a1, a2, a3⟩, -⟩ := idx_facts t
  show V m c main_arg0 (((cfg0.win 0).blk t).view.emb (ix4 (0 : Fin 1) ch r s)) = _
  refine congrArg (V m c main_arg0) (funext fun a => Fin.ext ?_)
  match a with
  | ⟨0, _⟩ => show win0_0.index t (0 : Fin 4) * 1 + 1 * (0 : ℕ) = t.val; omega
  | ⟨1, _⟩ => show win0_0.index t (1 : Fin 4) * 3 + 1 * ch.val = ch.val; omega
  | ⟨2, _⟩ => show win0_0.index t (2 : Fin 4) * 512 + 1 * r.val = r.val; omega
  | ⟨3, _⟩ => show win0_0.index t (3 : Fin 4) * 512 + 1 * s.val = s.val; omega

/-- The second image window's block at point t is batch member t of the second argument. -/
theorem blk1_apply (c : Dev nD) (t : Fin cfg0.N) (ch : Fin 3) (r s : Fin 512) :
    iblk m c 1 t (ix4 (0 : Fin 1) ch r s) = V m c main_arg1 (ix4 (batchOf t) ch r s) := by
  obtain ⟨-, ⟨a0, a1, a2, a3⟩, -⟩ := idx_facts t
  show V m c main_arg1 (((cfg0.win 1).blk t).view.emb (ix4 (0 : Fin 1) ch r s)) = _
  refine congrArg (V m c main_arg1) (funext fun a => Fin.ext ?_)
  match a with
  | ⟨0, _⟩ => show win0_1.index t (0 : Fin 4) * 1 + 1 * (0 : ℕ) = t.val; omega
  | ⟨1, _⟩ => show win0_1.index t (1 : Fin 4) * 3 + 1 * ch.val = ch.val; omega
  | ⟨2, _⟩ => show win0_1.index t (2 : Fin 4) * 512 + 1 * r.val = r.val; omega
  | ⟨3, _⟩ => show win0_1.index t (3 : Fin 4) * 512 + 1 * s.val = s.val; omega

/-- A matrix window's block, at every point, is the whole matrix. -/
theorem blk2_apply (c : Dev nD) (t : Fin cfg0.N) (o : Fin 128) (k : Fin 512) :
    iblk m c 2 t (ix2 o k) = (V m c main_v8 : S128x512.Idx → EReal) (ix2 o k) := by
  obtain ⟨-, -, ⟨a0, a1⟩, -⟩ := idx_facts t
  show V m c main_v8 (((cfg0.win 2).blk t).view.emb (ix2 o k)) = _
  refine congrArg (V m c main_v8) (funext fun a => Fin.ext ?_)
  match a with
  | ⟨0, _⟩ => show win0_2.index t (0 : Fin 2) * 128 + 1 * o.val = o.val; omega
  | ⟨1, _⟩ => show win0_2.index t (1 : Fin 2) * 512 + 1 * k.val = k.val; omega

theorem blk3_apply (c : Dev nD) (t : Fin cfg0.N) (k : Fin 512) (q : Fin 128) :
    iblk m c 3 t (ix2 k q) = (V m c main_v9 : S512x128.Idx → EReal) (ix2 k q) := by
  obtain ⟨-, -, -, ⟨a0, a1⟩, -⟩ := idx_facts t
  show V m c main_v9 (((cfg0.win 3).blk t).view.emb (ix2 k q)) = _
  refine congrArg (V m c main_v9) (funext fun a => Fin.ext ?_)
  match a with
  | ⟨0, _⟩ => show win0_3.index t (0 : Fin 2) * 512 + 1 * k.val = k.val; omega
  | ⟨1, _⟩ => show win0_3.index t (1 : Fin 2) * 128 + 1 * q.val = q.val; omega

theorem blk4_apply (c : Dev nD) (t : Fin cfg0.N) (i j : Fin 128) :
    iblk m c 4 t (ix2 i j) = (V m c main_v19 : S128x128.Idx → EReal) (ix2 i j) := by
  obtain ⟨-, -, -, -, ⟨a0, a1⟩, -⟩ := idx_facts t
  show V m c main_v19 (((cfg0.win 4).blk t).view.emb (ix2 i j)) = _
  refine congrArg (V m c main_v19) (funext fun a => Fin.ext ?_)
  match a with
  | ⟨0, _⟩ => show win0_4.index t (0 : Fin 2) * 128 + 1 * i.val = i.val; omega
  | ⟨1, _⟩ => show win0_4.index t (1 : Fin 2) * 128 + 1 * j.val = j.val; omega

theorem blk5_apply (c : Dev nD) (t : Fin cfg0.N) (i j : Fin 128) :
    iblk m c 5 t (ix2 i j) = (V m c main_v20 : S128x128.Idx → EReal) (ix2 i j) := by
  obtain ⟨-, -, -, -, -, ⟨a0, a1⟩, -⟩ := idx_facts t
  show V m c main_v20 (((cfg0.win 5).blk t).view.emb (ix2 i j)) = _
  refine congrArg (V m c main_v20) (funext fun a => Fin.ext ?_)
  match a with
  | ⟨0, _⟩ => show win0_5.index t (0 : Fin 2) * 128 + 1 * i.val = i.val; omega
  | ⟨1, _⟩ => show win0_5.index t (1 : Fin 2) * 128 + 1 * j.val = j.val; omega

theorem blk6_apply (c : Dev nD) (t : Fin cfg0.N) (i j : Fin 128) :
    iblk m c 6 t (ix2 i j) = (V m c main_v30 : S128x128.Idx → EReal) (ix2 i j) := by
  obtain ⟨-, -, -, -, -, -, ⟨a0, a1⟩, -⟩ := idx_facts t
  show V m c main_v30 (((cfg0.win 6).blk t).view.emb (ix2 i j)) = _
  refine congrArg (V m c main_v30) (funext fun a => Fin.ext ?_)
  match a with
  | ⟨0, _⟩ => show win0_6.index t (0 : Fin 2) * 128 + 1 * i.val = i.val; omega
  | ⟨1, _⟩ => show win0_6.index t (1 : Fin 2) * 128 + 1 * j.val = j.val; omega

theorem blk7_apply (c : Dev nD) (t : Fin cfg0.N) (i j : Fin 128) :
    iblk m c 7 t (ix2 i j) = (V m c main_v31 : S128x128.Idx → EReal) (ix2 i j) := by
  obtain ⟨-, -, -, -, -, -, -, ⟨a0, a1⟩, -⟩ := idx_facts t
  show V m c main_v31 (((cfg0.win 7).blk t).view.emb (ix2 i j)) = _
  refine congrArg (V m c main_v31) (funext fun a => Fin.ext ?_)
  match a with
  | ⟨0, _⟩ => show win0_7.index t (0 : Fin 2) * 128 + 1 * i.val = i.val; omega
  | ⟨1, _⟩ => show win0_7.index t (1 : Fin 2) * 128 + 1 * j.val = j.val; omega

/-- WHAT POINT t WRITES BACK is block t of the one whole-array function of the two arguments. -/
theorem flushed_eq (c : Dev nD) (t : Fin cfg0.N) :
    (dats m 0 c).flushed 8 t
      = ((cfg0.win 8).blk t).view.read (Elt Ideal) (result (V m c main_arg0) (V m c main_arg1)) := by
  rw [Cert.KernelIdeal.Value.flushed8]
  funext y
  obtain ⟨u, u', i, j, rfl⟩ : ∃ (u u' : Fin 1) (i j : Fin 128), y = ix4 u u' i j := ⟨y 0, y 1, y 2, y 3, eq_ix4 y⟩
  obtain rfl : u = 0 := Subsingleton.elim _ _
  obtain rfl : u' = 0 := Subsingleton.elim _ _
  show out0_8 (iblk m c 0 t) (iblk m c 1 t) (iblk m c 2 t) (iblk m c 3 t) (iblk m c 4 t) (iblk m c 5 t) (iblk m c 6 t) (iblk m c 7 t)
      (ix4 (0 : Fin 1) (0 : Fin 1) i j)
    = result (V m c main_arg0) (V m c main_arg1) (((cfg0.win 8).blk t).view.emb (ix4 (0 : Fin 1) (0 : Fin 1) i j))
  refine (out_apply (iblk m c 0 t) (iblk m c 1 t) (iblk m c 2 t) (iblk m c 3 t) (iblk m c 4 t) (iblk m c 5 t) (iblk m c 6 t) (iblk m c 7 t)
    (fun o k => (blk2_apply m c t o k).trans (poolRows_apply m c o k))
    (fun k q => (blk3_apply m c t k q).trans (poolCols_apply m c k q))
    (fun i k => (blk4_apply m c t i k).trans (superdiag19_apply m c i k))
    (fun i k => (blk5_apply m c t i k).trans (subdiag20_apply m c i k))
    (fun k j => (blk6_apply m c t k j).trans (superdiag30_apply m c k j))
    (fun k j => (blk7_apply m c t k j).trans (subdiag31_apply m c k j)) i j).trans ?_
  obtain ⟨-, -, -, -, -, -, -, -, ⟨a0, a1, a2, a3⟩⟩ := idx_facts t
  have he : ((cfg0.win 8).blk t).view.emb (ix4 (0 : Fin 1) (0 : Fin 1) i j) = ix4 (batchOf t) (0 : Fin 1) i j := by
    refine funext fun a => Fin.ext ?_
    match a with
    | ⟨0, _⟩ => show win0_8.index t (0 : Fin 4) * 1 + 1 * (0 : ℕ) = t.val; omega
    | ⟨1, _⟩ => show win0_8.index t (1 : Fin 4) * 1 + 1 * (0 : ℕ) = 0; omega
    | ⟨2, _⟩ => show win0_8.index t (2 : Fin 4) * 128 + 1 * i.val = i.val; omega
    | ⟨3, _⟩ => show win0_8.index t (3 : Fin 4) * 128 + 1 * j.val = j.val; omega
  rw [he]
  have e0 : img (iblk m c 0 t) = member (V m c main_arg0) (batchOf t) :=
    funext fun ch => funext fun r => funext fun s => blk0_apply m c t ch r s
  have e1 : img (iblk m c 1 t) = member (V m c main_arg1) (batchOf t) :=
    funext fun ch => funext fun r => funext fun s => blk1_apply m c t ch r s
  rw [e0, e1]
  rfl

/-- An index of the output array lies in point t's block iff each coordinate is in the block's range. -/
theorem mem_blk (t : Fin cfg0.N) (i : S16x1x128x128.Idx) :
    i ∈ ((cfg0.win 8).blk t).view.set ↔ ∀ a : Fin 4, win0_8.index t a * S1x1x128x128.size a ≤ (i a).val
      ∧ (i a).val < win0_8.index t a * S1x1x128x128.size a + S1x1x128x128.size a := by
  show i ∈ ((View.whole main_v32).slice (win0_8.rect t)).set ↔ _
  rw [View.set_slice_whole, Rect.mem_set_unit]
  exact Iff.rfl

/-- Every index of the output array is written by the point of its batch coordinate. -/
theorem cover (i : S16x1x128x128.Idx) : ∃ t : Fin cfg0.N, (cfg0.win 8).flush t = true ∧ i ∈ ((cfg0.win 8).blk t).view.set := by
  have hN : cfg0.N = 16 := N_0
  have h0 : (i 0).val < 16 := (i 0).isLt
  have h1 : (i 1).val < 1 := (i 1).isLt
  have h2 : (i 2).val < 128 := (i 2).isLt
  have h3 : (i 3).val < 128 := (i 3).isLt
  obtain ⟨t, ht⟩ : ∃ t : Fin cfg0.N, t.val = (i 0).val := ⟨⟨(i 0).val, by omega⟩, rfl⟩
  refine ⟨t, flush0_8 t, ?_⟩
  rw [mem_blk]
  obtain ⟨-, -, -, -, -, -, -, -, ⟨a0, a1, a2, a3⟩⟩ := idx_facts t
  intro a
  match a with
  | ⟨0, _⟩ => show win0_8.index t (0 : Fin 4) * 1 ≤ (i 0).val ∧ (i 0).val < win0_8.index t (0 : Fin 4) * 1 + 1; rw [a0, ht]; omega
  | ⟨1, _⟩ => show win0_8.index t (1 : Fin 4) * 1 ≤ (i 1).val ∧ (i 1).val < win0_8.index t (1 : Fin 4) * 1 + 1; rw [a1]; omega
  | ⟨2, _⟩ => show win0_8.index t (2 : Fin 4) * 128 ≤ (i 2).val ∧ (i 2).val < win0_8.index t (2 : Fin 4) * 128 + 128; rw [a2]; omega
  | ⟨3, _⟩ => show win0_8.index t (3 : Fin 4) * 128 ≤ (i 3).val ∧ (i 3).val < win0_8.index t (3 : Fin 4) * 128 + 128; rw [a3]; omega

/-- THE OUTPUT ARRAY after the run is the one function of the two arguments as the region finds them. -/
theorem final (c : Dev nD) : (dats m 0 c).arrAt 8 cfg0.N = result (V m c main_arg0) (V m c main_arg1) :=
  (dats m 0 c).arrAt_eq_of_cover 8 (result (V m c main_arg0) (V m c main_arg1)) (fun t _ => flushed_eq m c t) cover

/-- The kernel's run: it terminates without a fault, the result array holds `result` of the two argument arrays, and
    the arguments are unchanged. -/
theorem run : θ_run defs (onTc (τ := τ) (main (F := Ideal))) ⟨m, fun _ => 0, ρ⟩ fun r => ∀ c : Dev nD,
      r.2.mem ((c : Thread nD τ).loc main_v32) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨by rw [(h c).1, final m c, V_main_arg0, V_main_arg1], (h c).2⟩)
    (Cert.KernelIdeal.Value.run_blocks m ρ)

end Cert.KernelIdeal.Whole

end
-- ==== Proof.RefStages.lean ====
/-
  Three operations of the reference computation, each read at one index, over the extended reals.
  (1) The 4 × 4 block sum: a [16, 1, 512, 512] array reshaped to [16, 1, 128, 4, 128, 4] and summed over its two
      block axes is, at (b, 0, o, q), the initial value plus the sum of the array over rows 4 o … 4 o + 3 and columns
      4 q … 4 q + 3.
  (2) The pad: a [16, 1, 128, 128] array padded by one entry on each side of its last two axes is, at (b, 0, r, s), the
      array at (b, 0, r - 1, s - 1) when 1 ≤ r, s ≤ 128 and the padding value on the border.
  (3) The five unit-stride [16, 1, 128, 128] slices of the padded array — centre, left, right, up, down — are the array
      itself and the array shifted by one column or one row, with the padding value where the shift leaves the array.
-/
import proofs.«124903_j84370337562972_1_alg».proof.Proof.Gen.ReferenceIdeal.Read
import Idealize.ShloMosaic.Lib.Pipeline.Value
import Idealize.ShloMosaic.Lib.ValueIdx
import Idealize.ShloMosaic.Lib.ValueIdxRank6
import Idealize.ShloMosaic.Lib.KernelVsHost
import Idealize.ShloMosaic.PureOps.Ideal.Laws

noncomputable section

namespace Cert.ReferenceIdeal.Stages

open Cert.ReferenceIdeal Cert.ReferenceIdeal.Gen Idealize.ShloMosaic Idealize.ShloMosaic.TcCoe Idealize.ShloMosaic.ValueIdx Idealize.SL.Sem

/-! ## The reshape into 4 × 4 blocks, read at an index -/

/-- The reshaped array at (b, 0, o, a, q, d) is the operand at (b, 0, 4 o + a, 4 q + d): the two indices have the same
    row-major position. -/
theorem reshape_at (y : (⟨S16x1x512x512, .f32⟩ : BufTy).Contents (Elt Ideal)) (b : Fin 16) (o q : Fin 128) (a d : Fin 4) :
    shapeCast S16x1x128x4x128x4 y shapeCasts_S16x1x512x512_S16x1x128x4x128x4 (ix6 b (0 : Fin 1) o a q d)
      = y (ix4 b (0 : Fin 1) ⟨4 * o.val + a.val, by omega⟩ ⟨4 * q.val + d.val, by omega⟩) :=
  shapeCast_apply y shapeCasts_S16x1x512x512_S16x1x128x4x128x4 (ix6 b (0 : Fin 1) o a q d)
    (ix4 b (0 : Fin 1) (⟨4 * o.val + a.val, by omega⟩ : Fin 512) (⟨4 * q.val + d.val, by omega⟩ : Fin 512)) (by
    rw [Shape.rowMajor_val_four, Shape.rowMajor_val_six]
    show ((b.val * 1 + 0) * 512 + (4 * o.val + a.val)) * 512 + (4 * q.val + d.val)
      = ((((b.val * 1 + 0) * 128 + o.val) * 4 + a.val) * 128 + q.val) * 4 + d.val
    omega)

/-! ## The sum over the two block axes, read at an index -/

/-- Dropping the two block coordinates of (b, 0, o, a, q, d) leaves (b, 0, o, q). -/
theorem drop_ix6 (b : Fin 16) (o q : Fin 128) (a d : Fin 4) :
    reducesTo_S16x1x128x4x128x4_S16x1x128x128_d3_5.drop (ix6 b (0 : Fin 1) o a q d) = ix4 b (0 : Fin 1) o q := by
  funext c
  match c with
  | ⟨0, _⟩ => rfl
  | ⟨1, _⟩ => rfl
  | ⟨2, _⟩ => rfl
  | ⟨3, _⟩ => rfl

/-- An index of the rank-6 array that drops to (b, 0, o, q) is (b, 0, o, a, q, d) for its own block coordinates a, d. -/
theorem eq_ix6_of_drop (i : S16x1x128x4x128x4.Idx) (b : Fin 16) (o q : Fin 128)
    (hd : reducesTo_S16x1x128x4x128x4_S16x1x128x128_d3_5.drop i = ix4 b (0 : Fin 1) o q) :
    ix6 b (0 : Fin 1) o (⟨(i 3).val, (i 3).isLt⟩ : Fin 4) q (⟨(i 5).val, (i 5).isLt⟩ : Fin 4) = i := by
  have e0 : (reducesTo_S16x1x128x4x128x4_S16x1x128x128_d3_5.drop i 0).val = b.val := congrArg Fin.val (congrFun hd 0)
  have e2 : (reducesTo_S16x1x128x4x128x4_S16x1x128x128_d3_5.drop i 2).val = o.val := congrArg Fin.val (congrFun hd 2)
  have e3 : (reducesTo_S16x1x128x4x128x4_S16x1x128x128_d3_5.drop i 3).val = q.val := congrArg Fin.val (congrFun hd 3)
  have h0 : (i 0).val = b.val := (Shape.ReducesTo.drop_apply_val_of_eq reducesTo_S16x1x128x4x128x4_S16x1x128x128_d3_5 i 0 0).symm.trans e0
  have h1 : (i 1).val < 1 := (i 1).isLt
  have h2 : (i 2).val = o.val := (Shape.ReducesTo.drop_apply_val_of_eq reducesTo_S16x1x128x4x128x4_S16x1x128x128_d3_5 i 2 2).symm.trans e2
  have h4 : (i 4).val = q.val := (Shape.ReducesTo.drop_apply_val_of_eq reducesTo_S16x1x128x4x128x4_S16x1x128x128_d3_5 i 3 4).symm.trans e3
  funext c
  match c with
  | ⟨0, _⟩ => exact Fin.ext h0.symm
  | ⟨1, _⟩ => exact Fin.ext (by show (0 : Fin 1).val = (i 1).val; omega)
  | ⟨2, _⟩ => exact Fin.ext h2.symm
  | ⟨3, _⟩ => rfl
  | ⟨4, _⟩ => exact Fin.ext h4.symm
  | ⟨5, _⟩ => rfl

/-- THE SUM OVER THE TWO BLOCK AXES READ AT (b, 0, o, q): the initial value plus the double sum over the block
    coordinates (a, d) of the operand at (b, 0, o, a, q, d). The indices dropping to (b, 0, o, q) correspond to the
    pairs (a, d) by reading off, and putting back, the two block coordinates. -/
theorem hostReduceAdd_blocks (x : S16x1x128x4x128x4.Idx → EReal) (init : EReal) (b : Fin 16) (o q : Fin 128) :
    Ideal.hostReduceAdd reducesTo_S16x1x128x4x128x4_S16x1x128x128_d3_5 x init (ix4 b (0 : Fin 1) o q)
      = init + ∑ a : Fin 4, ∑ d : Fin 4, x (ix6 b (0 : Fin 1) o a q d) := by
  unfold Ideal.hostReduceAdd
  refine congrArg (init + ·) ?_
  refine Eq.trans ?_ (Fintype.sum_prod_type (fun p : Fin 4 × Fin 4 => x (ix6 b (0 : Fin 1) o p.1 q p.2)))
  refine Finset.sum_nbij' (fun i => ((⟨(i 3).val, (i 3).isLt⟩ : Fin 4), (⟨(i 5).val, (i 5).isLt⟩ : Fin 4)))
    (fun p => ix6 b (0 : Fin 1) o p.1 q p.2) ?_ ?_ ?_ ?_ ?_
  · intro i _; exact Finset.mem_univ _
  · intro p _; exact Finset.mem_filter.2 ⟨Finset.mem_univ _, drop_ix6 b o q p.1 p.2⟩
  · intro i hi; exact eq_ix6_of_drop i b o q (Finset.mem_filter.1 hi).2
  · intro p _; rfl
  · intro i hi; exact congrArg x (eq_ix6_of_drop i b o q (Finset.mem_filter.1 hi).2).symm

/-- THE 4 × 4 BLOCK SUM: the reshape into blocks followed by the sum over the two block axes, read at (b, 0, o, q), is
    the initial value plus the sum of the operand over the 4 × 4 block of rows 4 o … 4 o + 3 and columns
    4 q … 4 q + 3. -/
theorem blockSum_at (y : (⟨S16x1x512x512, .f32⟩ : BufTy).Contents (Elt Ideal)) (z : (⟨S_, .f32⟩ : BufTy).Contents (Elt Ideal))
    (b : Fin 16) (o q : Fin 128) :
    Host.reduceAdd (F := Ideal) (φ := .f32) (shapeCast S16x1x128x4x128x4 y shapeCasts_S16x1x512x512_S16x1x128x4x128x4) z reducesTo_S16x1x128x4x128x4_S16x1x128x128_d3_5 h_S_ (ix4 b (0 : Fin 1) o q)
      = z ix0 + ∑ a : Fin 4, ∑ d : Fin 4,
          y (ix4 b (0 : Fin 1) ⟨4 * o.val + a.val, by omega⟩ ⟨4 * q.val + d.val, by omega⟩) := by
  simp only [Host.reduceAdd, Ideal.hostReduceAdd_def]
  rw [hostReduceAdd_blocks, show z (Shape.Idx.first h_S_) = z ix0 from congrArg z (eq_ix0 _)]
  exact congrArg (z ix0 + ·) (Finset.sum_congr rfl fun a _ => Finset.sum_congr rfl fun d _ => reshape_at y b o q a d)

/-! ## The zero pad read at an index -/

/-- The padded array at (b, 0, r, s) with 1 ≤ r, s ≤ 128 is the operand at (b, 0, r - 1, s - 1). -/
theorem pad_inside (y : (⟨S16x1x128x128, .f32⟩ : BufTy).Contents (Elt Ideal)) (z : (⟨S_, .f32⟩ : BufTy).Contents (Elt Ideal))
    (b : Fin 16) (r s : Fin 130) (i j : Fin 128) (hr : r.val = i.val + 1) (hs : s.val = j.val + 1) :
    pad S16x1x130x130 ![0, 0, 1, 1] ![0, 0, 1, 1] ![0, 0, 0, 0] y z pads_S16x1x128x128_S16x1x130x130_000_000_110_110 h_S_
      (ix4 b (0 : Fin 1) r s) = y (ix4 b (0 : Fin 1) i j) :=
  pad_apply_of_inside _ _ _ y z pads_S16x1x128x128_S16x1x130x130_000_000_110_110 h_S_ (ix4 b (0 : Fin 1) r s)
    (ix4 b (0 : Fin 1) i j) (fun a => match a with
    | ⟨0, _⟩ => by show b.val = 0 + b.val * (0 + 1); omega
    | ⟨1, _⟩ => by show (0 : Fin 1).val = 0 + (0 : Fin 1).val * (0 + 1); omega
    | ⟨2, _⟩ => by show r.val = 1 + i.val * (0 + 1); omega
    | ⟨3, _⟩ => by show s.val = 1 + j.val * (0 + 1); omega)

/-- The padded array at (b, 0, r, s) with r or s on the border (0 or 129) is the padding value. -/
theorem pad_border (y : (⟨S16x1x128x128, .f32⟩ : BufTy).Contents (Elt Ideal)) (z : (⟨S_, .f32⟩ : BufTy).Contents (Elt Ideal))
    (b : Fin 16) (r s : Fin 130) (h : r.val = 0 ∨ r.val = 129 ∨ s.val = 0 ∨ s.val = 129) :
    pad S16x1x130x130 ![0, 0, 1, 1] ![0, 0, 1, 1] ![0, 0, 0, 0] y z pads_S16x1x128x128_S16x1x130x130_000_000_110_110 h_S_
      (ix4 b (0 : Fin 1) r s) = z ix0 := by
  have hz : z (Shape.Idx.first h_S_) = z ix0 := congrArg z (eq_ix0 _)
  by_cases hr : r.val = 0 ∨ r.val = 129
  · refine (pad_apply_of_not_inside _ _ _ y z pads_S16x1x128x128_S16x1x130x130_000_000_110_110 h_S_
      (ix4 b (0 : Fin 1) r s) ⟨2, by decide⟩ ?_).trans hz
    show ¬(1 ≤ r.val ∧ (r.val - 1) % (0 + 1) = 0 ∧ (r.val - 1) / (0 + 1) < 128)
    omega
  · refine (pad_apply_of_not_inside _ _ _ y z pads_S16x1x128x128_S16x1x130x130_000_000_110_110 h_S_
      (ix4 b (0 : Fin 1) r s) ⟨3, by decide⟩ ?_).trans hz
    show ¬(1 ≤ s.val ∧ (s.val - 1) % (0 + 1) = 0 ∧ (s.val - 1) / (0 + 1) < 128)
    omega

/-- THE PAD READ AT AN INDEX: at (b, 0, r, s) of the 130 × 130 array it is the operand at (b, 0, r - 1, s - 1) when
    both r and s lie in 1 … 128, and the padding value on the border. -/
theorem pad_at (y : (⟨S16x1x128x128, .f32⟩ : BufTy).Contents (Elt Ideal)) (z : (⟨S_, .f32⟩ : BufTy).Contents (Elt Ideal))
    (b : Fin 16) (r s : Fin 130) :
    pad S16x1x130x130 ![0, 0, 1, 1] ![0, 0, 1, 1] ![0, 0, 0, 0] y z pads_S16x1x128x128_S16x1x130x130_000_000_110_110 h_S_
      (ix4 b (0 : Fin 1) r s)
      = if h : (1 ≤ r.val ∧ r.val ≤ 128) ∧ (1 ≤ s.val ∧ s.val ≤ 128) then
          y (ix4 b (0 : Fin 1) ⟨r.val - 1, by omega⟩ ⟨s.val - 1, by omega⟩)
        else z ix0 := by
  by_cases h : (1 ≤ r.val ∧ r.val ≤ 128) ∧ (1 ≤ s.val ∧ s.val ≤ 128)
  · rw [dif_pos h]
    exact pad_inside y z b r s _ _ (by show r.val = r.val - 1 + 1; omega) (by show s.val = s.val - 1 + 1; omega)
  · rw [dif_neg h]
    exact pad_border y z b r s (by have := r.isLt; have := s.isLt; omega)

/-! ## The five unit-stride slices of the padded array, read at an index -/

/-- The centre slice (offsets 1, 1) of the padded array is the operand itself. -/
theorem slice_centre (y : (⟨S16x1x128x128, .f32⟩ : BufTy).Contents (Elt Ideal)) (z : (⟨S_, .f32⟩ : BufTy).Contents (Elt Ideal))
    (b : Fin 16) (i j : Fin 128) :
    extractStridedSlice S16x1x128x128 ![0, 0, 1, 1] (pad S16x1x130x130 ![0, 0, 1, 1] ![0, 0, 1, 1] ![0, 0, 0, 0] y z pads_S16x1x128x128_S16x1x130x130_000_000_110_110 h_S_)
      slices_S16x1x130x130_S16x1x128x128_0_0_1_1 (ix4 b (0 : Fin 1) i j) = y (ix4 b (0 : Fin 1) i j) := by
  refine (extractStridedSlice_apply ![0, 0, 1, 1] _ slices_S16x1x130x130_S16x1x128x128_0_0_1_1 (ix4 b (0 : Fin 1) i j)
    (ix4 b (0 : Fin 1) (⟨i.val + 1, by omega⟩ : Fin 130) (⟨j.val + 1, by omega⟩ : Fin 130)) (fun a => match a with
      | ⟨0, _⟩ => by show b.val = 0 + b.val; omega
      | ⟨1, _⟩ => by show (0 : Fin 1).val = 0 + (0 : Fin 1).val; omega
      | ⟨2, _⟩ => by show i.val + 1 = 1 + i.val; omega
      | ⟨3, _⟩ => by show j.val + 1 = 1 + j.val; omega)).trans ?_
  exact pad_inside y z b _ _ i j rfl rfl

/-- The slice at offsets (1, 0) reads the operand one column to the left, and the padding value in column 0. -/
theorem slice_left (y : (⟨S16x1x128x128, .f32⟩ : BufTy).Contents (Elt Ideal)) (z : (⟨S_, .f32⟩ : BufTy).Contents (Elt Ideal))
    (b : Fin 16) (i j : Fin 128) :
    extractStridedSlice S16x1x128x128 ![0, 0, 1, 0] (pad S16x1x130x130 ![0, 0, 1, 1] ![0, 0, 1, 1] ![0, 0, 0, 0] y z pads_S16x1x128x128_S16x1x130x130_000_000_110_110 h_S_)
      slices_S16x1x130x130_S16x1x128x128_0_0_1_0 (ix4 b (0 : Fin 1) i j)
      = if h : 0 < j.val then y (ix4 b (0 : Fin 1) i ⟨j.val - 1, by omega⟩) else z ix0 := by
  refine (extractStridedSlice_apply ![0, 0, 1, 0] _ slices_S16x1x130x130_S16x1x128x128_0_0_1_0 (ix4 b (0 : Fin 1) i j)
    (ix4 b (0 : Fin 1) (⟨i.val + 1, by omega⟩ : Fin 130) (⟨j.val, by omega⟩ : Fin 130)) (fun a => match a with
      | ⟨0, _⟩ => by show b.val = 0 + b.val; omega
      | ⟨1, _⟩ => by show (0 : Fin 1).val = 0 + (0 : Fin 1).val; omega
      | ⟨2, _⟩ => by show i.val + 1 = 1 + i.val; omega
      | ⟨3, _⟩ => by show j.val = 0 + j.val; omega)).trans ?_
  by_cases h : 0 < j.val
  · rw [dif_pos h]
    exact pad_inside y z b _ _ i ⟨j.val - 1, by omega⟩ rfl (by show j.val = j.val - 1 + 1; omega)
  · rw [dif_neg h]
    exact pad_border y z b _ _ (Or.inr (Or.inr (Or.inl (by show j.val = 0; omega))))

/-- The slice at offsets (1, 2) reads the operand one column to the right, and the padding value in column 127. -/
theorem slice_right (y : (⟨S16x1x128x128, .f32⟩ : BufTy).Contents (Elt Ideal)) (z : (⟨S_, .f32⟩ : BufTy).Contents (Elt Ideal))
    (b : Fin 16) (i j : Fin 128) :
    extractStridedSlice S16x1x128x128 ![0, 0, 1, 2] (pad S16x1x130x130 ![0, 0, 1, 1] ![0, 0, 1, 1] ![0, 0, 0, 0] y z pads_S16x1x128x128_S16x1x130x130_000_000_110_110 h_S_)
      slices_S16x1x130x130_S16x1x128x128_0_0_1_2 (ix4 b (0 : Fin 1) i j)
      = if h : j.val + 1 < 128 then y (ix4 b (0 : Fin 1) i ⟨j.val + 1, h⟩) else z ix0 := by
  refine (extractStridedSlice_apply ![0, 0, 1, 2] _ slices_S16x1x130x130_S16x1x128x128_0_0_1_2 (ix4 b (0 : Fin 1) i j)
    (ix4 b (0 : Fin 1) (⟨i.val + 1, by omega⟩ : Fin 130) (⟨j.val + 2, by omega⟩ : Fin 130)) (fun a => match a with
      | ⟨0, _⟩ => by show b.val = 0 + b.val; omega
      | ⟨1, _⟩ => by show (0 : Fin 1).val = 0 + (0 : Fin 1).val; omega
      | ⟨2, _⟩ => by show i.val + 1 = 1 + i.val; omega
      | ⟨3, _⟩ => by show j.val + 2 = 2 + j.val; omega)).trans ?_
  by_cases h : j.val + 1 < 128
  · rw [dif_pos h]
    exact pad_inside y z b _ _ i ⟨j.val + 1, h⟩ rfl (by show j.val + 2 = j.val + 1 + 1; omega)
  · rw [dif_neg h]
    exact pad_border y z b _ _ (Or.inr (Or.inr (Or.inr (by have := j.isLt; show j.val + 2 = 129; omega))))

/-- The slice at offsets (0, 1) reads the operand one row up, and the padding value in row 0. -/
theorem slice_up (y : (⟨S16x1x128x128, .f32⟩ : BufTy).Contents (Elt Ideal)) (z : (⟨S_, .f32⟩ : BufTy).Contents (Elt Ideal))
    (b : Fin 16) (i j : Fin 128) :
    extractStridedSlice S16x1x128x128 ![0, 0, 0, 1] (pad S16x1x130x130 ![0, 0, 1, 1] ![0, 0, 1, 1] ![0, 0, 0, 0] y z pads_S16x1x128x128_S16x1x130x130_000_000_110_110 h_S_)
      slices_S16x1x130x130_S16x1x128x128_0_0_0_1 (ix4 b (0 : Fin 1) i j)
      = if h : 0 < i.val then y (ix4 b (0 : Fin 1) ⟨i.val - 1, by omega⟩ j) else z ix0 := by
  refine (extractStridedSlice_apply ![0, 0, 0, 1] _ slices_S16x1x130x130_S16x1x128x128_0_0_0_1 (ix4 b (0 : Fin 1) i j)
    (ix4 b (0 : Fin 1) (⟨i.val, by omega⟩ : Fin 130) (⟨j.val + 1, by omega⟩ : Fin 130)) (fun a => match a with
      | ⟨0, _⟩ => by show b.val = 0 + b.val; omega
      | ⟨1, _⟩ => by show (0 : Fin 1).val = 0 + (0 : Fin 1).val; omega
      | ⟨2, _⟩ => by show i.val = 0 + i.val; omega
      | ⟨3, _⟩ => by show j.val + 1 = 1 + j.val; omega)).trans ?_
  by_cases h : 0 < i.val
  · rw [dif_pos h]
    exact pad_inside y z b _ _ ⟨i.val - 1, by omega⟩ j (by show i.val = i.val - 1 + 1; omega) rfl
  · rw [dif_neg h]
    exact pad_border y z b _ _ (Or.inl (by show i.val = 0; omega))

/-- The slice at offsets (2, 1) reads the operand one row down, and the padding value in row 127. -/
theorem slice_down (y : (⟨S16x1x128x128, .f32⟩ : BufTy).Contents (Elt Ideal)) (z : (⟨S_, .f32⟩ : BufTy).Contents (Elt Ideal))
    (b : Fin 16) (i j : Fin 128) :
    extractStridedSlice S16x1x128x128 ![0, 0, 2, 1] (pad S16x1x130x130 ![0, 0, 1, 1] ![0, 0, 1, 1] ![0, 0, 0, 0] y z pads_S16x1x128x128_S16x1x130x130_000_000_110_110 h_S_)
      slices_S16x1x130x130_S16x1x128x128_0_0_2_1 (ix4 b (0 : Fin 1) i j)
      = if h : i.val + 1 < 128 then y (ix4 b (0 : Fin 1) ⟨i.val + 1, h⟩ j) else z ix0 := by
  refine (extractStridedSlice_apply ![0, 0, 2, 1] _ slices_S16x1x130x130_S16x1x128x128_0_0_2_1 (ix4 b (0 : Fin 1) i j)
    (ix4 b (0 : Fin 1) (⟨i.val + 2, by omega⟩ : Fin 130) (⟨j.val + 1, by omega⟩ : Fin 130)) (fun a => match a with
      | ⟨0, _⟩ => by show b.val = 0 + b.val; omega
      | ⟨1, _⟩ => by show (0 : Fin 1).val = 0 + (0 : Fin 1).val; omega
      | ⟨2, _⟩ => by show i.val + 2 = 2 + i.val; omega
      | ⟨3, _⟩ => by show j.val + 1 = 1 + j.val; omega)).trans ?_
  by_cases h : i.val + 1 < 128
  · rw [dif_pos h]
    exact pad_inside y z b _ _ ⟨i.val + 1, h⟩ j (by show i.val + 2 = i.val + 1 + 1; omega) rfl
  · rw [dif_neg h]
    exact pad_border y z b _ _ (Or.inr (Or.inl (by have := i.isLt; show i.val + 2 = 129; omega)))

end Cert.ReferenceIdeal.Stages

end
-- ==== Proof.RefValue.lean ====
/-
  The reference computation's last stage is one function of its two input arrays: at (b, 0, i, j) the sum of the four
  squared differences, between the two inputs, of the directional differences (left, right, up, down) of the 4 × 4
  average pool of the channel mean — the padding ring read as 0. Stage by stage: the channel mean, the pooled image,
  the five slices of the padded pooled image, then the pointwise arithmetic.
-/
import proofs.«124903_j84370337562972_1_alg».proof.Proof.Gen.ReferenceIdeal.Read
import proofs.«124903_j84370337562972_1_alg».proof.Proof.RefStages
import proofs.«124903_j84370337562972_1_alg».proof.Proof.Spec

noncomputable section

namespace Cert.ReferenceIdeal.RefValue

open Cert.ReferenceIdeal Cert.ReferenceIdeal.Gen Cert.ReferenceIdeal.Read Cert.ReferenceIdeal.Stages Cert.EdgeSpec
open Idealize.ShloMosaic Idealize.ShloMosaic.TcCoe Idealize.ShloMosaic.ValueIdx Idealize.SL.Sem

/-! ### The stages of the first input -/

/-- The channel mean of the first input at (b, 0, r, c): the sum over the three channels divided by the word 3.0. -/
theorem val_main_v3_at (x0 : (⟨S16x3x512x512, .f32⟩ : BufTy).Contents (Elt Ideal)) (b : Fin 16) (r c : Fin 512) :
    val_main_v3 (F := Ideal) x0 (ix4 b (0 : Fin 1) r c) = gray (member x0 b) r c := by
  rw [val_main_v3_apply, val_main_v1_apply, val_main_v0_apply, val_main_v2_apply, val_main_cst_0_apply, val_main_cst_apply]
  unfold gray member
  simp only [Ideal.hostDivf_def, Ideal.ofBits_def, Ideal.ofBits_zero_f32, zero_add]
  refine congrArg (Ideal.div · w3) (Finset.sum_congr rfl fun k _ => congrArg x0 (funext fun a => Fin.ext (by
    match a with | ⟨0, _⟩ => rfl | ⟨1, _⟩ => rfl | ⟨2, _⟩ => rfl | ⟨3, _⟩ => rfl)))

/-- The pooled channel mean of the first input at (b, 0, o, q): the 4 × 4 block sum of channel means divided by the word 16.0. -/
theorem val_main_v7_at (x0 : (⟨S16x3x512x512, .f32⟩ : BufTy).Contents (Elt Ideal)) (b : Fin 16) (o q : Fin 128) :
    val_main_v7 (F := Ideal) x0 (ix4 b (0 : Fin 1) o q) = pooled (member x0 b) o q := by
  rw [val_main_v7_apply, val_main_v6_apply, val_main_cst_2_apply]
  unfold val_main_v5 val_main_v4
  rw [blockSum_at, val_main_cst_1_apply]
  unfold pooled
  simp only [Ideal.hostDivf_def, Ideal.ofBits_def, Ideal.ofBits_zero_f32, zero_add]
  exact congrArg (Ideal.div · w16) (Finset.sum_congr rfl fun a _ => Finset.sum_congr rfl fun d _ =>
    val_main_v3_at x0 b _ _)

/-- The padding value of the first pad is the integer 0 converted, which is 0. -/
theorem val_main_call0_v0_zero : val_main_call0_v0 (F := Ideal) ix0 = 0 := by
  rw [val_main_call0_v0_apply, val_main_c_apply]
  show (((0#32 : BitVec 32).toInt : ℝ) : EReal) = 0
  simp

/-- The centre slice is the pooled image itself. -/
theorem val_main_v17_at (x0 : (⟨S16x3x512x512, .f32⟩ : BufTy).Contents (Elt Ideal)) (b : Fin 16) (i j : Fin 128) :
    val_main_v17 (F := Ideal) x0 (ix4 b (0 : Fin 1) i j) = pooled (member x0 b) i j := by
  unfold val_main_v17 val_main_v16
  rw [slice_centre, val_main_v7_at]

/-- The slice one column to the left is the left neighbour, 0 beyond the border. -/
theorem val_main_v18_at (x0 : (⟨S16x3x512x512, .f32⟩ : BufTy).Contents (Elt Ideal)) (b : Fin 16) (i j : Fin 128) :
    val_main_v18 (F := Ideal) x0 (ix4 b (0 : Fin 1) i j) = lft (pooled (member x0 b)) i j := by
  unfold val_main_v18 val_main_v16 lft
  rw [slice_left, val_main_call0_v0_zero]
  by_cases h : 0 < j.val
  · rw [dif_pos h, dif_pos h, val_main_v7_at]
  · rw [dif_neg h, dif_neg h]

/-- The slice one column to the right is the right neighbour, 0 beyond the border. -/
theorem val_main_v20_at (x0 : (⟨S16x3x512x512, .f32⟩ : BufTy).Contents (Elt Ideal)) (b : Fin 16) (i j : Fin 128) :
    val_main_v20 (F := Ideal) x0 (ix4 b (0 : Fin 1) i j) = rgt (pooled (member x0 b)) i j := by
  unfold val_main_v20 val_main_v16 rgt
  rw [slice_right, val_main_call0_v0_zero]
  by_cases h : j.val + 1 < 128
  · rw [dif_pos h, dif_pos h, val_main_v7_at]
  · rw [dif_neg h, dif_neg h]

/-- The slice one row up is the neighbour above, 0 beyond the border. -/
theorem val_main_v22_at (x0 : (⟨S16x3x512x512, .f32⟩ : BufTy).Contents (Elt Ideal)) (b : Fin 16) (i j : Fin 128) :
    val_main_v22 (F := Ideal) x0 (ix4 b (0 : Fin 1) i j) = upp (pooled (member x0 b)) i j := by
  unfold val_main_v22 val_main_v16 upp
  rw [slice_up, val_main_call0_v0_zero]
  by_cases h : 0 < i.val
  · rw [dif_pos h, dif_pos h, val_main_v7_at]
  · rw [dif_neg h, dif_neg h]

/-- The slice one row down is the neighbour below, 0 beyond the border. -/
theorem val_main_v24_at (x0 : (⟨S16x3x512x512, .f32⟩ : BufTy).Contents (Elt Ideal)) (b : Fin 16) (i j : Fin 128) :
    val_main_v24 (F := Ideal) x0 (ix4 b (0 : Fin 1) i j) = dwn (pooled (member x0 b)) i j := by
  unfold val_main_v24 val_main_v16 dwn
  rw [slice_down, val_main_call0_v0_zero]
  by_cases h : i.val + 1 < 128
  · rw [dif_pos h, dif_pos h, val_main_v7_at]
  · rw [dif_neg h, dif_neg h]

/-! ### The stages of the second input -/

/-- The channel mean of the second input at (b, 0, r, c): the sum over the three channels divided by the word 3.0. -/
theorem val_main_v11_at (x1 : (⟨S16x3x512x512, .f32⟩ : BufTy).Contents (Elt Ideal)) (b : Fin 16) (r c : Fin 512) :
    val_main_v11 (F := Ideal) x1 (ix4 b (0 : Fin 1) r c) = gray (member x1 b) r c := by
  rw [val_main_v11_apply, val_main_v9_apply, val_main_v8_apply, val_main_v10_apply, val_main_cst_4_apply, val_main_cst_3_apply]
  unfold gray member
  simp only [Ideal.hostDivf_def, Ideal.ofBits_def, Ideal.ofBits_zero_f32, zero_add]
  refine congrArg (Ideal.div · w3) (Finset.sum_congr rfl fun k _ => congrArg x1 (funext fun a => Fin.ext (by
    match a with | ⟨0, _⟩ => rfl | ⟨1, _⟩ => rfl | ⟨2, _⟩ => rfl | ⟨3, _⟩ => rfl)))

/-- The pooled channel mean of the second input at (b, 0, o, q): the 4 × 4 block sum of channel means divided by the word 16.0. -/
theorem val_main_v15_at (x1 : (⟨S16x3x512x512, .f32⟩ : BufTy).Contents (Elt Ideal)) (b : Fin 16) (o q : Fin 128) :
    val_main_v15 (F := Ideal) x1 (ix4 b (0 : Fin 1) o q) = pooled (member x1 b) o q := by
  rw [val_main_v15_apply, val_main_v14_apply, val_main_cst_6_apply]
  unfold val_main_v13 val_main_v12
  rw [blockSum_at, val_main_cst_5_apply]
  unfold pooled
  simp only [Ideal.hostDivf_def, Ideal.ofBits_def, Ideal.ofBits_zero_f32, zero_add]
  exact congrArg (Ideal.div · w16) (Finset.sum_congr rfl fun a _ => Finset.sum_congr rfl fun d _ =>
    val_main_v11_at x1 b _ _)

/-- The padding value of the second pad is the integer 0 converted, which is 0. -/
theorem val_main_call1_v0_zero : val_main_call1_v0 (F := Ideal) ix0 = 0 := by
  rw [val_main_call1_v0_apply, val_main_c_7_apply]
  show (((0#32 : BitVec 32).toInt : ℝ) : EReal) = 0
  simp

/-- The centre slice is the pooled image itself. -/
theorem val_main_v27_at (x1 : (⟨S16x3x512x512, .f32⟩ : BufTy).Contents (Elt Ideal)) (b : Fin 16) (i j : Fin 128) :
    val_main_v27 (F := Ideal) x1 (ix4 b (0 : Fin 1) i j) = pooled (member x1 b) i j := by
  unfold val_main_v27 val_main_v26
  rw [slice_centre, val_main_v15_at]

/-- The slice one column to the left is the left neighbour, 0 beyond the border. -/
theorem val_main_v28_at (x1 : (⟨S16x3x512x512, .f32⟩ : BufTy).Contents (Elt Ideal)) (b : Fin 16) (i j : Fin 128) :
    val_main_v28 (F := Ideal) x1 (ix4 b (0 : Fin 1) i j) = lft (pooled (member x1 b)) i j := by
  unfold val_main_v28 val_main_v26 lft
  rw [slice_left, val_main_call1_v0_zero]
  by_cases h : 0 < j.val
  · rw [dif_pos h, dif_pos h, val_main_v15_at]
  · rw [dif_neg h, dif_neg h]

/-- The slice one column to the right is the right neighbour, 0 beyond the border. -/
theorem val_main_v30_at (x1 : (⟨S16x3x512x512, .f32⟩ : BufTy).Contents (Elt Ideal)) (b : Fin 16) (i j : Fin 128) :
    val_main_v30 (F := Ideal) x1 (ix4 b (0 : Fin 1) i j) = rgt (pooled (member x1 b)) i j := by
  unfold val_main_v30 val_main_v26 rgt
  rw [slice_right, val_main_call1_v0_zero]
  by_cases h : j.val + 1 < 128
  · rw [dif_pos h, dif_pos h, val_main_v15_at]
  · rw [dif_neg h, dif_neg h]

/-- The slice one row up is the neighbour above, 0 beyond the border. -/
theorem val_main_v32_at (x1 : (⟨S16x3x512x512, .f32⟩ : BufTy).Contents (Elt Ideal)) (b : Fin 16) (i j : Fin 128) :
    val_main_v32 (F := Ideal) x1 (ix4 b (0 : Fin 1) i j) = upp (pooled (member x1 b)) i j := by
  unfold val_main_v32 val_main_v26 upp
  rw [slice_up, val_main_call1_v0_zero]
  by_cases h : 0 < i.val
  · rw [dif_pos h, dif_pos h, val_main_v15_at]
  · rw [dif_neg h, dif_neg h]

/-- The slice one row down is the neighbour below, 0 beyond the border. -/
theorem val_main_v34_at (x1 : (⟨S16x3x512x512, .f32⟩ : BufTy).Contents (Elt Ideal)) (b : Fin 16) (i j : Fin 128) :
    val_main_v34 (F := Ideal) x1 (ix4 b (0 : Fin 1) i j) = dwn (pooled (member x1 b)) i j := by
  unfold val_main_v34 val_main_v26 dwn
  rw [slice_down, val_main_call1_v0_zero]
  by_cases h : i.val + 1 < 128
  · rw [dif_pos h, dif_pos h, val_main_v15_at]
  · rw [dif_neg h, dif_neg h]

/-! ### The last stage -/

/-- THE REFERENCE'S RESULT is the specification's function of the two inputs. -/
theorem reference_eq (x0 x1 : (⟨S16x3x512x512, .f32⟩ : BufTy).Contents (Elt Ideal)) :
    Cert.ReferenceIdeal.Read.val_main_v46 (F := Ideal) x0 x1 = Cert.EdgeSpec.result x0 x1 := by
  funext i
  obtain ⟨b, u, o, q, rfl⟩ : ∃ (b : Fin 16) (u : Fin 1) (o q : Fin 128), i = ix4 b u o q :=
    ⟨i 0, i 1, i 2, i 3, eq_ix4 i⟩
  obtain rfl : u = 0 := Subsingleton.elim _ _
  rw [val_main_v46_apply, val_main_v43_apply, val_main_v45_apply, val_main_v40_apply, val_main_v42_apply, val_main_v44_apply, val_main_v37_apply, val_main_v39_apply, val_main_v41_apply, val_main_v36_apply, val_main_v38_apply, val_main_v19_apply, val_main_v29_apply, val_main_v21_apply, val_main_v31_apply, val_main_v23_apply, val_main_v33_apply, val_main_v25_apply, val_main_v35_apply]
  rw [val_main_v17_at, val_main_v18_at, val_main_v20_at, val_main_v22_at, val_main_v24_at, val_main_v27_at, val_main_v28_at, val_main_v30_at, val_main_v32_at, val_main_v34_at]
  rfl

end Cert.ReferenceIdeal.RefValue

end
-- ==== Proof.lean ====
/-
  The certificate of an edge-difference kernel against its jnp reference, at the ideal values.

  Both programs take two image stacks x, e of shape [16, 3, 512, 512] and return, for each batch member, a 128 × 128
  image: with p(x) the 4 × 4 average pool of the channel mean and, for each of the four directions, the difference
  between an entry of p and its neighbour in that direction (the neighbour read as 0 beyond the border),

      out = (left(p x) − left(p e))² + (right …)² + (up …)² + (down …)².

  The reference spells this with a mean over channels, a reshape to 4 × 4 blocks with a mean over the block axes, a pad
  by one ring of zeros and five slices. The kernel, one batch member per grid point, spells the pool as two matrix
  products with a 0/1 pooling matrix and its transpose followed by the factor 0.0625, and each neighbour as a product
  with the super- or sub-diagonal matrix; the six constant matrices are built on the host before the call.

  On the extended reals the two are one function (Spec.lean's `result`): a sum against a 0/1 matrix keeps exactly the
  terms where the matrix is 1 (0 · x = 0 and 1 · x = x for every extended real), the sums regroup, and x · 0.0625 is
  x / 16 for every extended real. So the equality uses only commutativity and associativity of finite sums and needs
  no finiteness of the inputs: the precondition is never opened.

  The modules: Spec (the function and the summation laws), HostMats (the six constant matrices entry by entry), Body
  (the kernel body's stored block at an index), Whole (from the blocks every grid point writes to the whole result
  array, and the kernel's run), RefStages and RefValue (the reference's stages and its result as the same function).
  The three frames are the generated ones; the idealization rewrote nothing, so `preserves` is trivial.
-/
import proofs.«124903_j84370337562972_1_alg».proof.Defs
import proofs.«124903_j84370337562972_1_alg».proof.Proof.Gen.Kernel
import proofs.«124903_j84370337562972_1_alg».proof.Proof.Gen.Kernel.Skeleton
import proofs.«124903_j84370337562972_1_alg».proof.Proof.Gen.Kernel.Launch
import proofs.«124903_j84370337562972_1_alg».proof.Proof.Gen.Kernel.Points
import proofs.«124903_j84370337562972_1_alg».proof.Proof.Gen.Kernel.Frame
import proofs.«124903_j84370337562972_1_alg».proof.Proof.Gen.KernelIdeal
import proofs.«124903_j84370337562972_1_alg».proof.Proof.Gen.KernelIdeal.Skeleton
import proofs.«124903_j84370337562972_1_alg».proof.Proof.Gen.KernelIdeal.Launch
import proofs.«124903_j84370337562972_1_alg».proof.Proof.Gen.KernelIdeal.Points
import proofs.«124903_j84370337562972_1_alg».proof.Proof.Gen.KernelIdeal.Frame
import proofs.«124903_j84370337562972_1_alg».proof.Proof.Gen.ReferenceIdeal
import proofs.«124903_j84370337562972_1_alg».proof.Proof.Gen.Pre_finite_inputs
import proofs.«124903_j84370337562972_1_alg».proof.Proof.Gen.KernelIdeal.Value
import proofs.«124903_j84370337562972_1_alg».proof.Proof.Gen.ReferenceIdeal.Run
import proofs.«124903_j84370337562972_1_alg».proof.Proof.Gen.ReferenceIdeal.Read
import proofs.«124903_j84370337562972_1_alg».proof.Proof.Whole
import proofs.«124903_j84370337562972_1_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, both idealized programs end with the same result array: the one function of the two
    arguments, the kernel's by its run block by block, the reference's by its run stage by stage. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, Cert.ReferenceIdeal.RefValue.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
